-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32x32 : Shape := ⟨4, ![16, 2048, 32, 32]⟩
abbrev S256x2048 : Shape := ⟨2, ![256, 2048]⟩
abbrev S256 : Shape := ⟨1, ![256]⟩
abbrev S_ : Shape := ⟨0, ![]⟩

class Facts : Prop where
  bcast_S_S16x2048x32x32 : S_.BroadcastsInDim S16x2048x32x32 (![] : Fin 0 → Fin S16x2048x32x32.rank)
  reducesTo_S16x2048x32x32_S_d0_1_2_3 : S16x2048x32x32.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_cst_10 : FVec F S_ .f32 := constant S_ .f32 0x00000000#32
  let main_v29 : FVec F S256 .f32 := broadcastInDim S256 ![] bcast_S_S256 main_cst_10
  let main_v30 : IVec S256 1 := cmpf .oge main_arg5 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v28 main_v31
  main_v32

def fn {F : FTy → Type} [FloatOps F] (main_arg0 : FVec F S16x2048x32x32 .f32) (main_arg1 : FVec F S256x2048 .f32) (main_arg2 : FVec F S256 .f32) (main_arg3 : FVec F S256 .f32) (main_arg4 : FVec F S256 .f32) (main_arg5 : FVec F S256 .f32) : IVec S_ 1 :=
  let main_v0 : FVec F S16x2048x32x32 .f32 := Host.absf main_arg0
  let main_cst : FVec F S_ .f32 := constant S_ .f32 0x7F800000#32
  let main_v1 : FVec F S16x2048x32x32 .f32 := broadcastInDim S16x2048x32x32 ![] bcast_S_S16x2048x32x32 main_cst
  let main_v2 : IVec S16x2048x32x32 1 := cmpf .olt main_v0 main_v1
  let main_c : IVec S_ 1 := constantI S_ 1 1#1
  let main_v3 : IVec S_ 1 := (fun x v => Host.reduce IntOp.andi x v reducesTo_S16x2048x32x32_S_d0_1_2_3 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x2048x32x32 : Shape := ⟨4, ![16, 2048, 32, 32]⟩
abbrev S256x2048 : Shape := ⟨2, ![256, 2048]⟩
abbrev S256 : Shape := ⟨1, ![256]⟩
abbrev S16x32x32x2048 : Shape := ⟨4, ![16, 32, 32, 2048]⟩
abbrev S16x1024x2048 : Shape := ⟨3, ![16, 1024, 2048]⟩
abbrev S1x256 : Shape := ⟨2, ![1, 256]⟩
abbrev S16x1024x256 : Shape := ⟨3, ![16, 1024, 256]⟩
abbrev S1x1024x2048 : Shape := ⟨3, ![1, 1024, 2048]⟩
abbrev S1x1024x256 : Shape := ⟨3, ![1, 1024, 256]⟩
abbrev S1024x2048 : Shape := ⟨2, ![1024, 2048]⟩
abbrev S8x2048 : Shape := ⟨2, ![8, 2048]⟩
abbrev S2048 : Shape := ⟨1, ![2048]⟩
abbrev S1x2048 : Shape := ⟨2, ![1, 2048]⟩
abbrev S128x256 : Shape := ⟨2, ![128, 256]⟩
abbrev S1x128x256 : Shape := ⟨3, ![1, 128, 256]⟩
abbrev S16x32x32x256 : Shape := ⟨4, ![16, 32, 32, 256]⟩
abbrev S16x256x32x32 : Shape := ⟨4, ![16, 256, 32, 32]⟩

abbrev nBuf : Space → Nat
  | .hbm => 15
  | .vmem => 9
  | .smem => 0
  | _ => 0

abbrev bufTy : (tb : Table) → Fin (tcTables nBuf tb) → BufTy
  | .hbm, ⟨0, _⟩ => ⟨S16x2048x32x32, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x32x32x2048, .f32⟩
  | .hbm, ⟨7, _⟩ => ⟨S16x1024x2048, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S16x1024x256, .f32⟩
  | .hbm, ⟨13, _⟩ => ⟨S16x32x32x256, .f32⟩
  | .hbm, ⟨14, _⟩ => ⟨S16x256x32x32, .f32⟩
  | .local _ .vmem, ⟨0, _⟩ => ⟨S1x1024x2048, .f32⟩
  | .local _ .vmem, ⟨1, _⟩ => ⟨S1x1024x2048, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x1024x256, .f32⟩
  | .local _ .vmem, ⟨8, _⟩ => ⟨S1x1024x256, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S16x2048x32x32_S16x32x32x2048_0_2_3_1 : S16x2048x32x32.Transposes [0, 2, 3, 1] S16x32x32x2048
  shapeCasts_S16x32x32x2048_S16x1024x2048 : S16x32x32x2048.ShapeCasts S16x1024x2048
  shapeCasts_S256_S1x256 : S256.ShapeCasts S1x256
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S1024x2048_o0_0_S8x2048 : S1024x2048.Slices ![0, 0] S8x2048
  slices_S1024x2048_o8_0_S8x2048 : S1024x2048.Slices ![8, 0] S8x2048
  slices_S1024x2048_o16_0_S8x2048 : S1024x2048.Slices ![16, 0] S8x2048
  slices_S1024x2048_o24_0_S8x2048 : S1024x2048.Slices ![24, 0] S8x2048
  slices_S1024x2048_o32_0_S8x2048 : S1024x2048.Slices ![32, 0] S8x2048
  slices_S1024x2048_o40_0_S8x2048 : S1024x2048.Slices ![40, 0] S8x2048
  slices_S1024x2048_o48_0_S8x2048 : S1024x2048.Slices ![48, 0] S8x2048
  slices_S1024x2048_o56_0_S8x2048 : S1024x2048.Slices ![56, 0] S8x2048
  slices_S1024x2048_o64_0_S8x2048 : S1024x2048.Slices ![64, 0] S8x2048
  slices_S1024x2048_o72_0_S8x2048 : S1024x2048.Slices ![72, 0] S8x2048
  slices_S1024x2048_o80_0_S8x2048 : S1024x2048.Slices ![80, 0] S8x2048
  slices_S1024x2048_o88_0_S8x2048 : S1024x2048.Slices ![88, 0] S8x2048
  slices_S1024x2048_o96_0_S8x2048 : S1024x2048.Slices ![96, 0] S8x2048
  slices_S1024x2048_o104_0_S8x2048 : S1024x2048.Slices ![104, 0] S8x2048
  slices_S1024x2048_o112_0_S8x2048 : S1024x2048.Slices ![112, 0] S8x2048
  slices_S1024x2048_o120_0_S8x2048 : S1024x2048.Slices ![120, 0] S8x2048
  slices_S1024x2048_o128_0_S8x2048 : S1024x2048.Slices ![128, 0] S8x2048
  slices_S1024x2048_o136_0_S8x2048 : S1024x2048.Slices ![136, 0] S8x2048
  slices_S1024x2048_o144_0_S8x2048 : S1024x2048.Slices ![144, 0] S8x2048
  slices_S1024x2048_o152_0_S8x2048 : S1024x2048.Slices ![152, 0] S8x2048
  slices_S1024x2048_o160_0_S8x2048 : S1024x2048.Slices ![160, 0] S8x2048
  slices_S1024x2048_o168_0_S8x2048 : S1024x2048.Slices ![168, 0] S8x2048
  slices_S1024x2048_o176_0_S8x2048 : S1024x2048.Slices ![176, 0] S8x2048
  slices_S1024x2048_o184_0_S8x2048 : S1024x2048.Slices ![184, 0] S8x2048
  slices_S1024x2048_o192_0_S8x2048 : S1024x2048.Slices ![192, 0] S8x2048
  slices_S1024x2048_o200_0_S8x2048 : S1024x2048.Slices ![200, 0] S8x2048
  slices_S1024x2048_o208_0_S8x2048 : S1024x2048.Slices ![208, 0] S8x2048
  slices_S1024x2048_o216_0_S8x2048 : S1024x2048.Slices ![216, 0] S8x2048
  slices_S1024x2048_o224_0_S8x2048 : S1024x2048.Slices ![224, 0] S8x2048
  slices_S1024x2048_o232_0_S8x2048 : S1024x2048.Slices ![232, 0] S8x2048
  slices_S1024x2048_o240_0_S8x2048 : S1024x2048.Slices ![240, 0] S8x2048
  slices_S1024x2048_o248_0_S8x2048 : S1024x2048.Slices ![248, 0] S8x2048
  slices_S1024x2048_o256_0_S8x2048 : S1024x2048.Slices ![256, 0] S8x2048
  slices_S1024x2048_o264_0_S8x2048 : S1024x2048.Slices ![264, 0] S8x2048
  slices_S1024x2048_o272_0_S8x2048 : S1024x2048.Slices ![272, 0] S8x2048
  slices_S1024x2048_o280_0_S8x2048 : S1024x2048.Slices ![280, 0] S8x2048
  slices_S1024x2048_o288_0_S8x2048 : S1024x2048.Slices ![288, 0] S8x2048
  slices_S1024x2048_o296_0_S8x2048 : S1024x2048.Slices ![296, 0] S8x2048
  slices_S1024x2048_o304_0_S8x2048 : S1024x2048.Slices ![304, 0] S8x2048
  slices_S1024x2048_o312_0_S8x2048 : S1024x2048.Slices ![312, 0] S8x2048
  slices_S1024x2048_o320_0_S8x2048 : S1024x2048.Slices ![320, 0] S8x2048
  slices_S1024x2048_o328_0_S8x2048 : S1024x2048.Slices ![328, 0] S8x2048
  slices_S1024x2048_o336_0_S8x2048 : S1024x2048.Slices ![336, 0] S8x2048
  slices_S1024x2048_o344_0_S8x2048 : S1024x2048.Slices ![344, 0] S8x2048
  slices_S1024x2048_o352_0_S8x2048 : S1024x2048.Slices ![352, 0] S8x2048
  slices_S1024x2048_o360_0_S8x2048 : S1024x2048.Slices ![360, 0] S8x2048
  slices_S1024x2048_o368_0_S8x2048 : S1024x2048.Slices ![368, 0] S8x2048
  slices_S1024x2048_o376_0_S8x2048 : S1024x2048.Slices ![376, 0] S8x2048
  slices_S1024x2048_o384_0_S8x2048 : S1024x2048.Slices ![384, 0] S8x2048
  slices_S1024x2048_o392_0_S8x2048 : S1024x2048.Slices ![392, 0] S8x2048
  slices_S1024x2048_o400_0_S8x2048 : S1024x2048.Slices ![400, 0] S8x2048
  slices_S1024x2048_o408_0_S8x2048 : S1024x2048.Slices ![408, 0] S8x2048
  slices_S1024x2048_o416_0_S8x2048 : S1024x2048.Slices ![416, 0] S8x2048
  slices_S1024x2048_o424_0_S8x2048 : S1024x2048.Slices ![424, 0] S8x2048
  slices_S1024x2048_o432_0_S8x2048 : S1024x2048.Slices ![432, 0] S8x2048
  slices_S1024x2048_o440_0_S8x2048 : S1024x2048.Slices ![440, 0] S8x2048
  slices_S1024x2048_o448_0_S8x2048 : S1024x2048.Slices ![448, 0] S8x2048
  slices_S1024x2048_o456_0_S8x2048 : S1024x2048.Slices ![456, 0] S8x2048
  slices_S1024x2048_o464_0_S8x2048 : S1024x2048.Slices ![464, 0] S8x2048
  slices_S1024x2048_o472_0_S8x2048 : S1024x2048.Slices ![472, 0] S8x2048
  slices_S1024x2048_o480_0_S8x2048 : S1024x2048.Slices ![480, 0] S8x2048
  slices_S1024x2048_o488_0_S8x2048 : S1024x2048.Slices ![488, 0] S8x2048
  slices_S1024x2048_o496_0_S8x2048 : S1024x2048.Slices ![496, 0] S8x2048
  slices_S1024x2048_o504_0_S8x2048 : S1024x2048.Slices ![504, 0] S8x2048
  slices_S1024x2048_o512_0_S8x2048 : S1024x2048.Slices ![512, 0] S8x2048
  slices_S1024x2048_o520_0_S8x2048 : S1024x2048.Slices ![520, 0] S8x2048
  slices_S1024x2048_o528_0_S8x2048 : S1024x2048.Slices ![528, 0] S8x2048
  slices_S1024x2048_o536_0_S8x2048 : S1024x2048.Slices ![536, 0] S8x2048
  slices_S1024x2048_o544_0_S8x2048 : S1024x2048.Slices ![544, 0] S8x2048
  slices_S1024x2048_o552_0_S8x2048 : S1024x2048.Slices ![552, 0] S8x2048
  slices_S1024x2048_o560_0_S8x2048 : S1024x2048.Slices ![560, 0] S8x2048
  slices_S1024x2048_o568_0_S8x2048 : S1024x2048.Slices ![568, 0] S8x2048
  slices_S1024x2048_o576_0_S8x2048 : S1024x2048.Slices ![576, 0] S8x2048
  slices_S1024x2048_o584_0_S8x2048 : S1024x2048.Slices ![584, 0] S8x2048
  slices_S1024x2048_o592_0_S8x2048 : S1024x2048.Slices ![592, 0] S8x2048
  slices_S1024x2048_o600_0_S8x2048 : S1024x2048.Slices ![600, 0] S8x2048
  slices_S1024x2048_o608_0_S8x2048 : S1024x2048.Slices ![608, 0] S8x2048
  slices_S1024x2048_o616_0_S8x2048 : S1024x2048.Slices ![616, 0] S8x2048
  slices_S1024x2048_o624_0_S8x2048 : S1024x2048.Slices ![624, 0] S8x2048
  slices_S1024x2048_o632_0_S8x2048 : S1024x2048.Slices ![632, 0] S8x2048
  slices_S1024x2048_o640_0_S8x2048 : S1024x2048.Slices ![640, 0] S8x2048
  slices_S1024x2048_o648_0_S8x2048 : S1024x2048.Slices ![648, 0] S8x2048
  slices_S1024x2048_o656_0_S8x2048 : S1024x2048.Slices ![656, 0] S8x2048
  slices_S1024x2048_o664_0_S8x2048 : S1024x2048.Slices ![664, 0] S8x2048
  slices_S1024x2048_o672_0_S8x2048 : S1024x2048.Slices ![672, 0] S8x2048
  slices_S1024x2048_o680_0_S8x2048 : S1024x2048.Slices ![680, 0] S8x2048
  slices_S1024x2048_o688_0_S8x2048 : S1024x2048.Slices ![688, 0] S8x2048
  slices_S1024x2048_o696_0_S8x2048 : S1024x2048.Slices ![696, 0] S8x2048
  slices_S1024x2048_o704_0_S8x2048 : S1024x2048.Slices ![704, 0] S8x2048
  slices_S1024x2048_o712_0_S8x2048 : S1024x2048.Slices ![712, 0] S8x2048
  slices_S1024x2048_o720_0_S8x2048 : S1024x2048.Slices ![720, 0] S8x2048
  slices_S1024x2048_o728_0_S8x2048 : S1024x2048.Slices ![728, 0] S8x2048
  slices_S1024x2048_o736_0_S8x2048 : S1024x2048.Slices ![736, 0] S8x2048
  slices_S1024x2048_o744_0_S8x2048 : S1024x2048.Slices ![744, 0] S8x2048
  slices_S1024x2048_o752_0_S8x2048 : S1024x2048.Slices ![752, 0] S8x2048
  slices_S1024x2048_o760_0_S8x2048 : S1024x2048.Slices ![760, 0] S8x2048
  slices_S1024x2048_o768_0_S8x2048 : S1024x2048.Slices ![768, 0] S8x2048
  slices_S1024x2048_o776_0_S8x2048 : S1024x2048.Slices ![776, 0] S8x2048
  slices_S1024x2048_o784_0_S8x2048 : S1024x2048.Slices ![784, 0] S8x2048
  slices_S1024x2048_o792_0_S8x2048 : S1024x2048.Slices ![792, 0] S8x2048
  slices_S1024x2048_o800_0_S8x2048 : S1024x2048.Slices ![800, 0] S8x2048
  slices_S1024x2048_o808_0_S8x2048 : S1024x2048.Slices ![808, 0] S8x2048
  slices_S1024x2048_o816_0_S8x2048 : S1024x2048.Slices ![816, 0] S8x2048
  slices_S1024x2048_o824_0_S8x2048 : S1024x2048.Slices ![824, 0] S8x2048
  slices_S1024x2048_o832_0_S8x2048 : S1024x2048.Slices ![832, 0] S8x2048
  slices_S1024x2048_o840_0_S8x2048 : S1024x2048.Slices ![840, 0] S8x2048
  slices_S1024x2048_o848_0_S8x2048 : S1024x2048.Slices ![848, 0] S8x2048
  slices_S1024x2048_o856_0_S8x2048 : S1024x2048.Slices ![856, 0] S8x2048
  slices_S1024x2048_o864_0_S8x2048 : S1024x2048.Slices ![864, 0] S8x2048
  slices_S1024x2048_o872_0_S8x2048 : S1024x2048.Slices ![872, 0] S8x2048
  slices_S1024x2048_o880_0_S8x2048 : S1024x2048.Slices ![880, 0] S8x2048
  slices_S1024x2048_o888_0_S8x2048 : S1024x2048.Slices ![888, 0] S8x2048
  slices_S1024x2048_o896_0_S8x2048 : S1024x2048.Slices ![896, 0] S8x2048
  slices_S1024x2048_o904_0_S8x2048 : S1024x2048.Slices ![904, 0] S8x2048
  slices_S1024x2048_o912_0_S8x2048 : S1024x2048.Slices ![912, 0] S8x2048
  slices_S1024x2048_o920_0_S8x2048 : S1024x2048.Slices ![920, 0] S8x2048
  slices_S1024x2048_o928_0_S8x2048 : S1024x2048.Slices ![928, 0] S8x2048
  slices_S1024x2048_o936_0_S8x2048 : S1024x2048.Slices ![936, 0] S8x2048
  slices_S1024x2048_o944_0_S8x2048 : S1024x2048.Slices ![944, 0] S8x2048
  slices_S1024x2048_o952_0_S8x2048 : S1024x2048.Slices ![952, 0] S8x2048
  slices_S1024x2048_o960_0_S8x2048 : S1024x2048.Slices ![960, 0] S8x2048
  slices_S1024x2048_o968_0_S8x2048 : S1024x2048.Slices ![968, 0] S8x2048
  slices_S1024x2048_o976_0_S8x2048 : S1024x2048.Slices ![976, 0] S8x2048
  slices_S1024x2048_o984_0_S8x2048 : S1024x2048.Slices ![984, 0] S8x2048
  slices_S1024x2048_o992_0_S8x2048 : S1024x2048.Slices ![992, 0] S8x2048
  slices_S1024x2048_o1000_0_S8x2048 : S1024x2048.Slices ![1000, 0] S8x2048
  slices_S1024x2048_o1008_0_S8x2048 : S1024x2048.Slices ![1008, 0] S8x2048
  slices_S1024x2048_o1016_0_S8x2048 : S1024x2048.Slices ![1016, 0] S8x2048
  reduces_S8x2048_S2048 : S8x2048.Reduces [0] S2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S1x1024x256_S1x128x256_0_0_0 : ∀ a, (![0, 0, 0] : Fin 3 → Nat) a + S1x128x256.size a ≤ S1x1024x256.size a
  h_S1x128x256 : 0 < S1x128x256.numel
  shapeCasts_S1x128x256_S128x256 : S1x128x256.ShapeCasts S128x256
  shapeCasts_S128x256_S1x128x256 : S128x256.ShapeCasts S1x128x256
  inb_S1x1024x256_S1x128x256_0_128_0 : ∀ a, (![0, 128, 0] : Fin 3 → Nat) a + S1x128x256.size a ≤ S1x1024x256.size a
  inb_S1x1024x256_S1x128x256_0_256_0 : ∀ a, (![0, 256, 0] : Fin 3 → Nat) a + S1x128x256.size a ≤ S1x1024x256.size a
  inb_S1x1024x256_S1x128x256_0_384_0 : ∀ a, (![0, 384, 0] : Fin 3 → Nat) a + S1x128x256.size a ≤ S1x1024x256.size a
  inb_S1x1024x256_S1x128x256_0_512_0 : ∀ a, (![0, 512, 0] : Fin 3 → Nat) a + S1x128x256.size a ≤ S1x1024x256.size a
  inb_S1x1024x256_S1x128x256_0_640_0 : ∀ a, (![0, 640, 0] : Fin 3 → Nat) a + S1x128x256.size a ≤ S1x1024x256.size a
  inb_S1x1024x256_S1x128x256_0_768_0 : ∀ a, (![0, 768, 0] : Fin 3 → Nat) a + S1x128x256.size a ≤ S1x1024x256.size a
  inb_S1x1024x256_S1x128x256_0_896_0 : ∀ a, (![0, 896, 0] : Fin 3 → Nat) a + S1x128x256.size a ≤ S1x1024x256.size a
  shapeCasts_S16x1024x256_S16x32x32x256 : S16x1024x256.ShapeCasts S16x32x32x256
  transposes_S16x32x32x256_S16x256x32x32_0_3_1_2 : S16x32x32x256.Transposes [0, 3, 1, 2] S16x256x32x32
  dot_S1x2048_S256x2048_S1x256_1_1_0_0_n_n_wf : DotDims.WF S1x2048 S256x2048 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x1024x2048.size a
  hwx0_0 : ∀ i : grid0.Coords, EltTy.bits .f32 = 32 ∨ (Rect.block (s := S16x1024x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S16x1024x256.size a
  hwx0_6 : ∀ i : grid0.Coords, EltTy.bits .f32 = 32 ∨ (Rect.block (s := S16x1024x256) S1x1024x256.size (cc0_transform_6 i) (hinb0_6 i)).WholeWords (EltTy.packing .f32)

variable [Facts₀]

def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf

abbrev win0_0 : Pipeline.Window sig grid0 :=
  Pipeline.Window.ofSpec (Memref.whole main_v1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x32x32 : Shape := ⟨4, ![16, 2048, 32, 32]⟩
abbrev S256x2048 : Shape := ⟨2, ![256, 2048]⟩
abbrev S256 : Shape := ⟨1, ![256]⟩
abbrev S_ : Shape := ⟨0, ![]⟩
abbrev S1x256 : Shape := ⟨2, ![1, 256]⟩
abbrev S256x1 : Shape := ⟨2, ![256, 1]⟩
abbrev S2048x256 : Shape := ⟨2, ![2048, 256]⟩
abbrev S16x2048x1024 : Shape := ⟨3, ![16, 2048, 1024]⟩
abbrev S16x1x256 : Shape := ⟨3, ![16, 1, 256]⟩
abbrev S1x512x1024 : Shape := ⟨3, ![1, 512, 1024]⟩
abbrev S512x256 : Shape := ⟨2, ![512, 256]⟩
abbrev S1x1x256 : Shape := ⟨3, ![1, 1, 256]⟩
abbrev S1x512 : Shape := ⟨2, ![1, 512]⟩
abbrev S16x256x1 : Shape := ⟨3, ![16, 256, 1]⟩
abbrev S16x256x1024 : Shape := ⟨3, ![16, 256, 1024]⟩
abbrev S1x256x1 : Shape := ⟨3, ![1, 256, 1]⟩
abbrev S1x256x1024 : Shape := ⟨3, ![1, 256, 1024]⟩
abbrev S1x256x128 : Shape := ⟨3, ![1, 256, 128]⟩
abbrev S16x256x32x32 : Shape := ⟨4, ![16, 256, 32, 32]⟩

abbrev nBuf : Space → Nat
  | .hbm => 26
  | .vmem => 12
  | .smem => 0
  | _ => 0

abbrev bufTy : (tb : Table) → Fin (tcTables nBuf tb) → BufTy
  | .hbm, ⟨0, _⟩ => ⟨S16x2048x32x32, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1x256, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S2048x256, .f32⟩
  | .hbm, ⟨21, _⟩ => ⟨S16x2048x1024, .f32⟩
  | .hbm, ⟨22, _⟩ => ⟨S16x1x256, .f32⟩
  | .hbm, ⟨23, _⟩ => ⟨S16x256x1, .f32⟩
  | .hbm, ⟨24, _⟩ => ⟨S16x256x1024, .f32⟩
  | .hbm, ⟨25, _⟩ => ⟨S16x256x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x1x256, .f32⟩
  | .local _ .vmem, ⟨6, _⟩ => ⟨S1x1x256, .f32⟩
  | .local _ .vmem, ⟨7, _⟩ => ⟨S1x256, .f32⟩
  | .local _ .vmem, ⟨8, _⟩ => ⟨S1x256x1, .f32⟩
  | .local _ .vmem, ⟨9, _⟩ => ⟨S1x256x1, .f32⟩
  | .local _ .vmem, ⟨10, _⟩ => ⟨S1x256x1024, .f32⟩
  | .local _ .vmem, ⟨11, _⟩ => ⟨S1x256x1024, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S_S256 : S_.BroadcastsInDim S256 (![] : Fin 0 → Fin S256.rank)
  shapeCasts_S256_S1x256 : S256.ShapeCasts S1x256
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  bcast_S_S256x2048 : S_.BroadcastsInDim S256x2048 (![] : Fin 0 → Fin S256x2048.rank)
  transposes_S256x2048_S2048x256_1_0 : S256x2048.Transposes [1, 0] S2048x256
  shapeCasts_S16x2048x32x32_S16x2048x1024 : S16x2048x32x32.ShapeCasts S16x2048x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x1024_S1x512 : S1x512x1024.Reduces [2] S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S16x1x256_S16x256x1 : S16x1x256.ShapeCasts S16x256x1
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x128 : S1x256x1.Broadcasts S1x256x128
  inb_S1x256x1024_S1x256x128_0_0_0 : ∀ a, (![0, 0, 0] : Fin 3 → Nat) a + S1x256x128.size a ≤ S1x256x1024.size a
  h_S1x256x128 : 0 < S1x256x128.numel
  inb_S1x256x1024_S1x256x128_0_0_128 : ∀ a, (![0, 0, 128] : Fin 3 → Nat) a + S1x256x128.size a ≤ S1x256x1024.size a
  inb_S1x256x1024_S1x256x128_0_0_256 : ∀ a, (![0, 0, 256] : Fin 3 → Nat) a + S1x256x128.size a ≤ S1x256x1024.size a
  inb_S1x256x1024_S1x256x128_0_0_384 : ∀ a, (![0, 0, 384] : Fin 3 → Nat) a + S1x256x128.size a ≤ S1x256x1024.size a
  inb_S1x256x1024_S1x256x128_0_0_512 : ∀ a, (![0, 0, 512] : Fin 3 → Nat) a + S1x256x128.size a ≤ S1x256x1024.size a
  inb_S1x256x1024_S1x256x128_0_0_640 : ∀ a, (![0, 0, 640] : Fin 3 → Nat) a + S1x256x128.size a ≤ S1x256x1024.size a
  inb_S1x256x1024_S1x256x128_0_0_768 : ∀ a, (![0, 0, 768] : Fin 3 → Nat) a + S1x256x128.size a ≤ S1x256x1024.size a
  inb_S1x256x1024_S1x256x128_0_0_896 : ∀ a, (![0, 0, 896] : Fin 3 → Nat) a + S1x256x128.size a ≤ S1x256x1024.size a
  shapeCasts_S16x256x1024_S16x256x32x32 : S16x256x1024.ShapeCasts S16x256x32x32
  dot_S1x512_S512x256_S1x256_1_0_0_1_n_n_wf : DotDims.WF S1x512 S512x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S16x1x256.size a
  hwx0_3 : ∀ i : grid0.Coords, EltTy.bits .f32 = 32 ∨ (Rect.block (s := S16x1x256) S1x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S16x256x1.size a
  hwx1_0 : ∀ i : grid1.Coords, EltTy.bits .f32 = 32 ∨ (Rect.block (s := S16x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S16x256x1024.size a
  hwx1_1 : ∀ i : grid1.Coords, EltTy.bits .f32 = 32 ∨ (Rect.block (s := S16x256x1024) S1x256x1024.size (cc1_transform_1 i) (hinb1_1 i)).WholeWords (EltTy.packing .f32)

variable [Facts₀]

def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf

abbrev win0_0 : Pipeline.Window sig grid0 :=
  Pipeline.Window.ofSpec (Memref.whole main_v13) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x256x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.KSum.lean ====
/-
  The kernel's spatial fold, read at one entry.

  The body views its (1024, 2048) block as 128 slabs of 8 rows and adds the slabs left to right,
  so entry (r, c) of the accumulated (8, 2048) tile is the sum over the slabs i of row 8 i + r at
  column c.  The printed body carries that sum as a left-nested chain of 127 additions, cut into
  five stretches; each stretch is read here as a sum over a range of slab numbers, and the
  stretches are joined into the one sum over all 128 slabs.
-/
import proofs.«104195_g2000404444116002_pallasbulk_979_6_alg».proof.Proof.Gen.KernelIdeal.Skeleton
import Idealize.ShloMosaic.Lib.ValueIdx
import Idealize.ShloMosaic.Lib.Pipeline.Value

noncomputable section

namespace Cert.KernelIdeal.HandValue

open Idealize.ShloMosaic Idealize.ShloMosaic.ValueIdx Cert.KernelIdeal Cert.KernelIdeal.Gen
open scoped BigOperators

/-- Row `n` of a (1024, 2048) tile at column `c`; zero past the last row, so that the row number
    can be any natural number. -/
def rowAt (v : FVec Ideal S1024x2048 .f32) (c : Fin 2048) (n : Nat) : EReal :=
  if h : n < 1024 then v (ix2 ⟨n, h⟩ c) else 0

/-- The slab of 8 rows starting at row `k`, read at (r, c), is row `k + r`. -/
theorem slab_apply (k : Nat) (hk : k + 8 ≤ 1024) (v : FVec Ideal S1024x2048 .f32)
    (h : S1024x2048.Slices ![k, 0] S8x2048) (r : Fin 8) (c : Fin 2048) :
    extractStridedSlice S8x2048 ![k, 0] v h (ix2 r c) = rowAt v c (k + r.val) := by
  unfold rowAt
  rw [dif_pos (by omega)]
  refine extractStridedSlice_apply _ _ h _ _ fun a => ?_
  match a with
  | ⟨0, _⟩ => rfl
  | ⟨1, _⟩ => show c.val = 0 + c.val; omega

/-- A left-nested chain of additions: `a + f 0 + f 1 + … + f (n - 1)`. -/
def chain (a : EReal) (f : Nat → EReal) : Nat → EReal
  | 0 => a
  | n + 1 => chain a f n + f n

theorem chain_eq (a : EReal) (f : Nat → EReal) (n : Nat) : chain a f n = a + ∑ i ∈ Finset.range n, f i := by
  induction n with
  | zero => simp [chain]
  | succ n ih => rw [chain, ih, Finset.sum_range_succ, add_assoc]

/-- Slab `i` of the tile at (r, c). -/
def slabAt (v : FVec Ideal S1024x2048 .f32) (r : Fin 8) (c : Fin 2048) (i : Nat) : EReal := rowAt v c (i * 8 + r.val)

/-- The first stretch: slabs 0 to 26. -/
theorem pay3_apply (v0 : Vec Ideal S1x1024x2048 .f32) (r : Fin 8) (c : Fin 2048) :
    k0_pay3 v0 (ix2 r c) = ∑ i ∈ Finset.range 27, slabAt (k0_pay2 v0) r c i := by
  have e : k0_pay3 v0 (ix2 r c) = chain (slabAt (k0_pay2 v0) r c 0) (fun i => slabAt (k0_pay2 v0) r c (i + 1)) 26 := by
    unfold k0_pay3
    simp (disch := norm_num) only [addf_apply, slab_apply]
    rfl
  rw [e, chain_eq, Finset.sum_range_succ' _ 26, add_comm]

/-- Slab 27. -/
theorem pay4_apply (v0 : Vec Ideal S1x1024x2048 .f32) (r : Fin 8) (c : Fin 2048) :
    k0_pay4 v0 (ix2 r c) = slabAt (k0_pay2 v0) r c 27 := by
  unfold k0_pay4
  exact slab_apply 216 (by norm_num) _ _ r c

/-- The second stretch: what came before, and slabs 28 to 56. -/
theorem pay5_apply (v : FVec Ideal S1024x2048 .f32) (a b : FVec Ideal S8x2048 .f32) (r : Fin 8) (c : Fin 2048) :
    k0_pay5 v a b (ix2 r c) = (a (ix2 r c) + b (ix2 r c)) + ∑ i ∈ Finset.range 29, slabAt v r c (28 + i) := by
  have e : k0_pay5 v a b (ix2 r c) = chain (a (ix2 r c) + b (ix2 r c)) (fun i => slabAt v r c (28 + i)) 29 := by
    unfold k0_pay5
    simp (disch := norm_num) only [addf_apply, slab_apply]
    rfl
  rw [e, chain_eq]

/-- Slab 57. -/
theorem pay6_apply (v : FVec Ideal S1024x2048 .f32) (r : Fin 8) (c : Fin 2048) :
    k0_pay6 v (ix2 r c) = slabAt v r c 57 := by
  unfold k0_pay6
  exact slab_apply 456 (by norm_num) _ _ r c

/-- The third stretch: what came before, and slabs 58 to 86. -/
theorem pay7_apply (v : FVec Ideal S1024x2048 .f32) (a b : FVec Ideal S8x2048 .f32) (r : Fin 8) (c : Fin 2048) :
    k0_pay7 v a b (ix2 r c) = (a (ix2 r c) + b (ix2 r c)) + ∑ i ∈ Finset.range 29, slabAt v r c (58 + i) := by
  have e : k0_pay7 v a b (ix2 r c) = chain (a (ix2 r c) + b (ix2 r c)) (fun i => slabAt v r c (58 + i)) 29 := by
    unfold k0_pay7
    simp (disch := norm_num) only [addf_apply, slab_apply]
    rfl
  rw [e, chain_eq]

/-- Slab 87. -/
theorem pay8_apply (v : FVec Ideal S1024x2048 .f32) (r : Fin 8) (c : Fin 2048) :
    k0_pay8 v (ix2 r c) = slabAt v r c 87 := by
  unfold k0_pay8
  exact slab_apply 696 (by norm_num) _ _ r c

/-- The fourth stretch: what came before, and slabs 88 to 116. -/
theorem pay9_apply (v : FVec Ideal S1024x2048 .f32) (a b : FVec Ideal S8x2048 .f32) (r : Fin 8) (c : Fin 2048) :
    k0_pay9 v a b (ix2 r c) = (a (ix2 r c) + b (ix2 r c)) + ∑ i ∈ Finset.range 29, slabAt v r c (88 + i) := by
  have e : k0_pay9 v a b (ix2 r c) = chain (a (ix2 r c) + b (ix2 r c)) (fun i => slabAt v r c (88 + i)) 29 := by
    unfold k0_pay9
    simp (disch := norm_num) only [addf_apply, slab_apply]
    rfl
  rw [e, chain_eq]

/-- Slab 117. -/
theorem pay10_apply (v : FVec Ideal S1024x2048 .f32) (r : Fin 8) (c : Fin 2048) :
    k0_pay10 v (ix2 r c) = slabAt v r c 117 := by
  unfold k0_pay10
  exact slab_apply 936 (by norm_num) _ _ r c

/-- Joining two consecutive ranges of slabs. -/
theorem range_join (f : Nat → EReal) (m n : Nat) :
    (∑ i ∈ Finset.range m, f i) + ∑ i ∈ Finset.range n, f (m + i) = ∑ i ∈ Finset.range (m + n), f i :=
  (Finset.sum_range_add f m n).symm

/-- The first four stretches together: slabs 0 to 116. -/
theorem upto117_apply (v0 : Vec Ideal S1x1024x2048 .f32) (r : Fin 8) (c : Fin 2048) :
    k0_pay9 (k0_pay2 v0) (k0_pay7 (k0_pay2 v0) (k0_pay5 (k0_pay2 v0) (k0_pay3 v0) (k0_pay4 v0)) (k0_pay6 (k0_pay2 v0)))
        (k0_pay8 (k0_pay2 v0)) (ix2 r c)
      = ∑ i ∈ Finset.range 117, slabAt (k0_pay2 v0) r c i := by
  rw [pay9_apply, pay7_apply, pay5_apply, pay3_apply, pay4_apply, pay6_apply, pay8_apply]
  rw [← Finset.sum_range_succ (slabAt (k0_pay2 v0) r c) 27, range_join (slabAt (k0_pay2 v0) r c) 28 29,
    ← Finset.sum_range_succ (slabAt (k0_pay2 v0) r c) 57, range_join (slabAt (k0_pay2 v0) r c) 58 29,
    ← Finset.sum_range_succ (slabAt (k0_pay2 v0) r c) 87, range_join (slabAt (k0_pay2 v0) r c) 88 29]

/-- A row number below 1024 reads the tile. -/
theorem slabAt_of_lt (v : FVec Ideal S1024x2048 .f32) (r : Fin 8) (c : Fin 2048) (i : Fin 128) :
    slabAt v r c i.val = v (ix2 ⟨i.val * 8 + r.val, by omega⟩ c) := by
  unfold slabAt rowAt
  rw [dif_pos (by omega)]

end Cert.KernelIdeal.HandValue

end
-- ==== Proof.SumIndex.lean ====
/-
  Two ways of cutting a finite sum into blocks, over any commutative additive monoid.

  A channel index `c < 2048` is `k * 512 + c'` for exactly one tile `k < 4` and one offset `c' < 512`; a pixel index
  `s < 1024` is `i * 8 + r` for exactly one group `i < 128` and one row `r < 8`. Summing over the pairs in either
  order is summing over the whole range: the pairing is the bijection `Fin m × Fin n ≃ Fin (m * n)`.
-/
import Mathlib.Algebra.BigOperators.Fin
import Mathlib.Data.Fintype.BigOperators
import Mathlib.Logic.Equiv.Fin.Basic

namespace Cert.Spec

open scoped BigOperators

/-- A sum over 2048 channels, as four tiles of 512: channel `k * 512 + c'` is offset `c'` of tile `k`. -/
theorem sum_tiles {M : Type*} [AddCommMonoid M] (f : Fin 2048 → M) :
    ∑ c : Fin 2048, f c = ∑ k : Fin 4, ∑ c' : Fin 512, f ⟨k.val * 512 + c'.val, by omega⟩ :=
  calc ∑ c : Fin 2048, f c
      = ∑ p : Fin 4 × Fin 512, f ⟨p.1.val * 512 + p.2.val, by omega⟩ :=
        (Fintype.sum_equiv (finProdFinEquiv (m := 4) (n := 512)) _ _
          (fun p => congrArg f (Fin.ext (by show p.1.val * 512 + p.2.val = p.2.val + 512 * p.1.val; omega)))).symm
    _ = ∑ k : Fin 4, ∑ c' : Fin 512, f ⟨k.val * 512 + c'.val, by omega⟩ :=
        Fintype.sum_prod_type' (fun (k : Fin 4) (c' : Fin 512) => f ⟨k.val * 512 + c'.val, by omega⟩)

/-- A sum over 1024 pixels, row by row of an 128 × 8 arrangement: pixel `i * 8 + r` is row `r` of group `i`, and the
    rows are summed outermost. -/
theorem sum_rows8 {M : Type*} [AddCommMonoid M] (g : Fin 1024 → M) :
    ∑ s : Fin 1024, g s = ∑ r : Fin 8, ∑ i : Fin 128, g ⟨i.val * 8 + r.val, by omega⟩ :=
  calc ∑ s : Fin 1024, g s
      = ∑ p : Fin 128 × Fin 8, g ⟨p.1.val * 8 + p.2.val, by omega⟩ :=
        (Fintype.sum_equiv (finProdFinEquiv (m := 128) (n := 8)) _ _
          (fun p => congrArg g (Fin.ext (by show p.1.val * 8 + p.2.val = p.2.val + 8 * p.1.val; omega)))).symm
    _ = ∑ i : Fin 128, ∑ r : Fin 8, g ⟨i.val * 8 + r.val, by omega⟩ :=
        Fintype.sum_prod_type' (fun (i : Fin 128) (r : Fin 8) => g ⟨i.val * 8 + r.val, by omega⟩)
    _ = ∑ r : Fin 8, ∑ i : Fin 128, g ⟨i.val * 8 + r.val, by omega⟩ := Finset.sum_comm

end Cert.Spec
-- ==== Proof.KPay.lean ====
/-
  The kernel's row of 256 results, read at one entry.

  After the spatial fold the body sums the (8, 2048) tile over its 8 rows, multiplies the resulting row of 2048
  pooled activations with the (256, 2048) weights along the channel axis, scales by γ · rsqrt (v + ε) · 2⁻¹⁰,
  adds β − μ · γ · rsqrt (v + ε) and takes the maximum with zero.  Entry o of that row is read here as one
  expression in the block's entries: the pooled activation of channel c is the sum of the block's 1024 rows at c.
-/
import proofs.«104195_g2000404444116002_pallasbulk_979_6_alg».proof.Proof.KSum
import proofs.«104195_g2000404444116002_pallasbulk_979_6_alg».proof.Proof.SumIndex
import Idealize.ShloMosaic.PureOps.Ideal.Laws

noncomputable section

namespace Cert.KernelIdeal.HandValue

open Idealize.ShloMosaic Idealize.ShloMosaic.ValueIdx Cert.KernelIdeal Cert.KernelIdeal.Gen
open scoped BigOperators

/-- The reciprocal square root of a tile, entry by entry. -/
theorem rsqrt_apply {s : Shape} {φ : FTy} (a : FVec Ideal s φ) (i : s.Idx) : rsqrt a i = Ideal.rsqrt (a i) := rfl

/-- The sum of an (8, 2048) tile over its rows, at column `c`. -/
theorem rowsum_apply (acc : FVec Ideal S8x2048 .f32) (h : S8x2048.Reduces [0] S2048) (hφ : FTy.f32 = FTy.f32 ∨ FTy.f32 = FTy.bf16)
    (hacc : (0x00000000#32 : BitVec 32) = 0x00000000#32) (c : Fin 2048) :
    multiReduction .add [0] S2048 acc 0x00000000#32 h hφ hacc (ix1 c) = ∑ r : Fin 8, acc (ix2 r c) := by
  refine (Ideal.multiReduction_add_single acc 0x00000000#32 h hφ hacc (ix1 c)).trans ?_
  exact Finset.sum_congr rfl fun k _ => congrArg acc (funext fun a => by
    match a with
    | ⟨0, _⟩ => rfl
    | ⟨1, _⟩ => rfl)

/-- A (2048) vector viewed as a (1, 2048) row. -/
theorem rowcast_apply (x : FVec Ideal S2048 .f32) (h : S2048.ShapeCasts S1x2048) (z : Fin 1) (c : Fin 2048) :
    shapeCast S1x2048 x h (ix2 z c) = x (ix1 c) := by
  refine shapeCast_apply x h (ix2 z c) (ix1 c) ?_
  rw [Shape.rowMajor_val_one, Shape.rowMajor_val_two]
  show c.val = z.val * 2048 + c.val
  omega

/-- The product of a (1, 2048) row with a (256, 2048) matrix along the second axis of both, into zero:
    entry `o` is the sum over `c` of the row at `c` times the matrix at (o, c). -/
theorem rowmat_apply (x : FVec Ideal S1x2048 .f32) (W : FVec Ideal S256x2048 .f32) (z : Fin 1) (o : Fin 256) :
    matmul dot_S1x2048_S256x2048_S1x256_1_1_0_0_n_n none x W (constant (F := Ideal) S1x256 .f32 0x00000000#32) (ix2 z o)
      = ∑ c : Fin 2048, x (ix2 z c) * W (ix2 o c) := by
  show FloatOps.matmul dot_S1x2048_S256x2048_S1x256_1_1_0_0_n_n none x W _ (ix2 z o) = _
  rw [Ideal.matmul_constant_zero_apply, ← Equiv.sum_comp (contrEquiv1 dot_S1x2048_S256x2048_S1x256_1_1_0_0_n_n 2048 rfl rfl).symm]
  refine Finset.sum_congr rfl fun c _ => ?_
  have c1 := contrEquiv1_symm_val dot_S1x2048_S256x2048_S1x256_1_1_0_0_n_n 2048 rfl rfl c
  have l : (dot_S1x2048_S256x2048_S1x256_1_1_0_0_n_n).lhsIdx (ix2 z o) ((contrEquiv1 dot_S1x2048_S256x2048_S1x256_1_1_0_0_n_n 2048 rfl rfl).symm c) = ix2 z c := by
    funext ax; apply Fin.ext
    match ax with
    | ⟨0, _⟩ => simp [DotDims.lhsIdx, dot_S1x2048_S256x2048_S1x256_1_1_0_0_n_n] <;> rfl
    | ⟨1, _⟩ => simp [DotDims.lhsIdx, dot_S1x2048_S256x2048_S1x256_1_1_0_0_n_n] <;> exact c1
  have r : (dot_S1x2048_S256x2048_S1x256_1_1_0_0_n_n).rhsIdx (ix2 z o) ((contrEquiv1 dot_S1x2048_S256x2048_S1x256_1_1_0_0_n_n 2048 rfl rfl).symm c) = ix2 o c := by
    funext ax; apply Fin.ext
    match ax with
    | ⟨0, _⟩ => simp [DotDims.rhsIdx, dot_S1x2048_S256x2048_S1x256_1_1_0_0_n_n] <;> rfl
    | ⟨1, _⟩ => simp [DotDims.rhsIdx, dot_S1x2048_S256x2048_S1x256_1_1_0_0_n_n] <;> exact c1
  rw [l, r]

/-- The last stretch of the fold and everything after it, at entry `o`: the chain of additions still folded. -/
theorem pay11_chain (v : FVec Ideal S1024x2048 .f32) (a b : FVec Ideal S8x2048 .f32) (W : Vec Ideal S256x2048 .f32)
    (γ var β μ : Vec Ideal S1x256 .f32) (z : Fin 1) (o : Fin 256) :
    k0_pay11 v a b W γ var β μ (ix2 z o)
      = max ((∑ c : Fin 2048, (∑ r : Fin 8, chain (a (ix2 r c) + b (ix2 r c)) (fun i => slabAt v r c (118 + i)) 10) * W (ix2 o c))
            * (γ (ix2 z o) * Ideal.rsqrt (var (ix2 z o) + Ideal.ofBits .f32 0x3727C5AC#32) * Ideal.ofBits .f32 0x3A800000#32)
          + (β (ix2 z o) - μ (ix2 z o) * (γ (ix2 z o) * Ideal.rsqrt (var (ix2 z o) + Ideal.ofBits .f32 0x3727C5AC#32))))
          (Ideal.ofBits .f32 0x00000000#32) := by
  unfold k0_pay11
  simp only [maximumf_apply, addf_apply, mulf_apply, subf_apply, broadcast_apply, rsqrt_apply,
    shapeCast_self, rowmat_apply, rowcast_apply, Ideal.ofBits_def]
  refine congrArg (fun t => max (t * _ + _) _) (Finset.sum_congr rfl fun x _ => congrArg (· * W (ix2 o x)) ?_)
  rw [rowsum_apply]
  refine Finset.sum_congr rfl fun r _ => ?_
  simp (disch := norm_num) only [addf_apply, slab_apply]
  rfl

/-- The same with the last stretch as a sum over slabs 118 to 127. -/
theorem pay11_apply (v : FVec Ideal S1024x2048 .f32) (a b : FVec Ideal S8x2048 .f32) (W : Vec Ideal S256x2048 .f32)
    (γ var β μ : Vec Ideal S1x256 .f32) (z : Fin 1) (o : Fin 256) :
    k0_pay11 v a b W γ var β μ (ix2 z o)
      = max ((∑ c : Fin 2048, (∑ r : Fin 8, ((a (ix2 r c) + b (ix2 r c)) + ∑ i ∈ Finset.range 10, slabAt v r c (118 + i))) * W (ix2 o c))
            * (γ (ix2 z o) * Ideal.rsqrt (var (ix2 z o) + Ideal.ofBits .f32 0x3727C5AC#32) * Ideal.ofBits .f32 0x3A800000#32)
          + (β (ix2 z o) - μ (ix2 z o) * (γ (ix2 z o) * Ideal.rsqrt (var (ix2 z o) + Ideal.ofBits .f32 0x3727C5AC#32))))
          0 := by
  rw [pay11_chain]
  simp only [chain_eq, Ideal.ofBits_zero_f32]

/-- All five stretches together: entry (r, c) of the folded tile is the sum over all 128 slabs. -/
theorem rows_apply (v0 : Vec Ideal S1x1024x2048 .f32) (r : Fin 8) (c : Fin 2048) :
    (k0_pay9 (k0_pay2 v0) (k0_pay7 (k0_pay2 v0) (k0_pay5 (k0_pay2 v0) (k0_pay3 v0) (k0_pay4 v0)) (k0_pay6 (k0_pay2 v0)))
          (k0_pay8 (k0_pay2 v0)) (ix2 r c) + k0_pay10 (k0_pay2 v0) (ix2 r c))
        + ∑ i ∈ Finset.range 10, slabAt (k0_pay2 v0) r c (118 + i)
      = ∑ i : Fin 128, k0_pay2 v0 (ix2 ⟨i.val * 8 + r.val, by omega⟩ c) := by
  rw [upto117_apply, pay10_apply, ← Finset.sum_range_succ (slabAt (k0_pay2 v0) r c) 117,
    range_join (slabAt (k0_pay2 v0) r c) 118 10, Finset.sum_range]
  exact Finset.sum_congr rfl fun i _ => slabAt_of_lt _ r c i

/-- The block viewed as a (1024, 2048) tile. -/
theorem pay2_apply (v0 : Vec Ideal S1x1024x2048 .f32) (s : Fin 1024) (c : Fin 2048) :
    k0_pay2 v0 (ix2 s c) = v0 (ix3 0 s c) := by
  unfold k0_pay2
  refine shapeCast_apply v0 _ (ix2 s c) (ix3 0 s c) ?_
  rw [Shape.rowMajor_val_two, Shape.rowMajor_val_three]
  show (0 * 1024 + s.val) * 2048 + c.val = s.val * 2048 + c.val
  omega

/-- One result, as a function of the 1024 × 2048 pooled entries `xs`, one output channel's weights `w` and its four
    batch-norm numbers: the pooled activation of channel `c` is the sum of `xs s c` over the 1024 pixels `s`. -/
def chanVal (xs : Fin 1024 → Fin 2048 → EReal) (w : Fin 2048 → EReal) (g va be mu : EReal) : EReal :=
  max ((∑ c : Fin 2048, (∑ s : Fin 1024, xs s c) * w c)
        * (g * Ideal.rsqrt (va + Ideal.ofBits .f32 0x3727C5AC#32) * Ideal.ofBits .f32 0x3A800000#32)
      + (be - mu * (g * Ideal.rsqrt (va + Ideal.ofBits .f32 0x3727C5AC#32)))) 0

/-- The body's row of results, from the block and the parameter rows it loads. -/
def rowOut (x0 : Vec Ideal S1x1024x2048 .f32) (W : Vec Ideal S256x2048 .f32) (γ var β μ : Vec Ideal S1x256 .f32) : FVec Ideal S1x256 .f32 :=
  k0_pay11 (k0_pay2 x0)
    (k0_pay9 (k0_pay2 x0) (k0_pay7 (k0_pay2 x0) (k0_pay5 (k0_pay2 x0) (k0_pay3 x0) (k0_pay4 x0)) (k0_pay6 (k0_pay2 x0))) (k0_pay8 (k0_pay2 x0)))
    (k0_pay10 (k0_pay2 x0)) W γ var β μ

theorem rowOut_apply (x0 : Vec Ideal S1x1024x2048 .f32) (W : Vec Ideal S256x2048 .f32) (γ var β μ : Vec Ideal S1x256 .f32)
    (z : Fin 1) (o : Fin 256) :
    rowOut x0 W γ var β μ (ix2 z o)
      = chanVal (fun s c => x0 (ix3 0 s c)) (fun c => W (ix2 o c)) (γ (ix2 z o)) (var (ix2 z o)) (β (ix2 z o)) (μ (ix2 z o)) := by
  unfold rowOut chanVal
  rw [pay11_apply]
  refine congrArg (fun t => max (t * _ + _) 0) (Finset.sum_congr rfl fun c _ => congrArg (· * W (ix2 o c)) ?_)
  show _ = ∑ s : Fin 1024, x0 (ix3 0 s c)
  rw [Cert.Spec.sum_rows8 (fun s : Fin 1024 => x0 (ix3 0 s c))]
  refine Finset.sum_congr rfl fun r _ => ?_
  rw [rows_apply]
  exact Finset.sum_congr rfl fun i _ => pay2_apply x0 _ c

end Cert.KernelIdeal.HandValue

end
-- ==== Proof.KBlock.lean ====
/-
  What the body leaves in the output block.

  The body repeats its row of 256 results over 128 rows and stores that (128, 256) tile eight times, at rows
  0, 128, …, 896 of the (1, 1024, 256) output block.  The eight stores tile the block, and each stored tile is the
  same function of the block's index — the row's entry at the index's last coordinate — so the block after the
  body holds, at every index (0, s, o), entry o of the row.
-/
import proofs.«104195_g2000404444116002_pallasbulk_979_6_alg».proof.Proof.Gen.KernelIdeal.Frame
import Idealize.ShloMosaic.Lib.ValueIdx
import Idealize.ShloMosaic.Lib.Pipeline.Value

noncomputable section

namespace Cert.KernelIdeal.HandValue

open Idealize.ShloMosaic Idealize.ShloMosaic.ValueIdx Cert.KernelIdeal Cert.KernelIdeal.Gen

/-- A (1, 256) row repeated over 128 rows and viewed as a (1, 128, 256) tile reads, at (p, s, o), the row at `o`. -/
theorem tile_apply (Y : FVec Ideal S1x256 .f32) (h1 : S1x256.ShapeCasts S1x256) (h2 : S1x256.Broadcasts S128x256)
    (h3 : S128x256.ShapeCasts S1x128x256) (p : Fin 1) (s : Fin 128) (o : Fin 256) :
    shapeCast S1x128x256 (broadcastTo S128x256 (shapeCast S1x256 Y h1) h2) h3 (ix3 p s o) = Y (ix2 0 o) := by
  refine (shapeCast_apply _ h3 (ix3 p s o) (ix2 s o) ?_).trans ?_
  · rw [Shape.rowMajor_val_two, Shape.rowMajor_val_three]
    show s.val * 256 + o.val = (p.val * 128 + s.val) * 256 + o.val
    have := p.isLt
    omega
  refine (broadcastTo_apply _ h2 (ix2 s o) (ix2 0 o) ?_).trans ?_
  · intro a
    match a with
    | ⟨0, _⟩ => rfl
    | ⟨1, _⟩ => rfl
  rw [shapeCast_self]

/-- The row's entry under an index of the output block. -/
abbrev under (Y : FVec Ideal S1x256 .f32) : Vec Ideal S1x1024x256 .f32 :=
  fun y => Y (ix2 0 ⟨(y 2).val, (y 2).isLt⟩)

/-- A stored tile whose entry at (p, s, o) is the row at `o`, placed at row offset `off` of the block, agrees with
    `under Y` on its rectangle. -/
theorem piece_eq (Y : FVec Ideal S1x256 .f32) (pay : FVec Ideal S1x128x256 .f32)
    (hpay : ∀ (p : Fin 1) (s : Fin 128) (o : Fin 256), pay (ix3 p s o) = Y (ix2 0 o))
    (off : Nat) (inb : ∀ a, (![0, off, 0] : Fin 3 → Nat) a + S1x128x256.size a ≤ S1x1024x256.size a) (x : S1x128x256.Idx) :
    pay x = under Y ((Rect.unit (s := S1x1024x256) ![0, off, 0] S1x128x256.size inb).emb x) := by
  obtain ⟨p, s, o, rfl⟩ : ∃ (p : Fin 1) (s : Fin 128) (o : Fin 256), x = ix3 p s o := ⟨x 0, x 1, x 2, eq_ix3 x⟩
  rw [hpay]
  refine congrArg Y (funext fun a => ?_)
  match a with
  | ⟨0, _⟩ => rfl
  | ⟨1, _⟩ => apply Fin.ext; show o.val = 0 + 1 * o.val; omega

theorem pay13_apply (Y : FVec Ideal S1x256 .f32) (p : Fin 1) (s : Fin 128) (o : Fin 256) : k0_pay13 Y (ix3 p s o) = Y (ix2 0 o) := by
  unfold k0_pay13 k0_pay12; exact tile_apply Y _ _ _ p s o
theorem pay14_apply (Y : FVec Ideal S1x256 .f32) (p : Fin 1) (s : Fin 128) (o : Fin 256) : k0_pay14 Y (ix3 p s o) = Y (ix2 0 o) := by
  unfold k0_pay14 k0_pay12; exact tile_apply Y _ _ _ p s o
theorem pay15_apply (Y : FVec Ideal S1x256 .f32) (p : Fin 1) (s : Fin 128) (o : Fin 256) : k0_pay15 Y (ix3 p s o) = Y (ix2 0 o) := by
  unfold k0_pay15 k0_pay12; exact tile_apply Y _ _ _ p s o
theorem pay16_apply (Y : FVec Ideal S1x256 .f32) (p : Fin 1) (s : Fin 128) (o : Fin 256) : k0_pay16 Y (ix3 p s o) = Y (ix2 0 o) := by
  unfold k0_pay16 k0_pay12; exact tile_apply Y _ _ _ p s o
theorem pay17_apply (Y : FVec Ideal S1x256 .f32) (p : Fin 1) (s : Fin 128) (o : Fin 256) : k0_pay17 Y (ix3 p s o) = Y (ix2 0 o) := by
  unfold k0_pay17 k0_pay12; exact tile_apply Y _ _ _ p s o
theorem pay18_apply (Y : FVec Ideal S1x256 .f32) (p : Fin 1) (s : Fin 128) (o : Fin 256) : k0_pay18 Y (ix3 p s o) = Y (ix2 0 o) := by
  unfold k0_pay18 k0_pay12; exact tile_apply Y _ _ _ p s o
theorem pay19_apply (Y : FVec Ideal S1x256 .f32) (p : Fin 1) (s : Fin 128) (o : Fin 256) : k0_pay19 Y (ix3 p s o) = Y (ix2 0 o) := by
  unfold k0_pay19 k0_pay12; exact tile_apply Y _ _ _ p s o
theorem pay1_apply (Y : FVec Ideal S1x256 .f32) (p : Fin 1) (s : Fin 128) (o : Fin 256) : k0_pay1 (k0_pay12 Y) (ix3 p s o) = Y (ix2 0 o) := by
  unfold k0_pay1 k0_pay12; exact tile_apply Y _ _ _ p s o

/-- The eight stores over one row `Y` leave `under Y` at every index of the block. -/
theorem canon_tiles (Y : FVec Ideal S1x256 .f32) (y : S1x1024x256.Idx) :
    View.canon ([⟨r0_10, k0_pay1 (k0_pay12 Y)⟩, ⟨r0_9, k0_pay19 Y⟩, ⟨r0_8, k0_pay18 Y⟩, ⟨r0_7, k0_pay17 Y⟩,
        ⟨r0_6, k0_pay16 Y⟩, ⟨r0_5, k0_pay15 Y⟩, ⟨r0_4, k0_pay14 Y⟩, ⟨r0_3, k0_pay13 Y⟩] : List (View.Piece (Elt Ideal) S1x1024x256 .f32)) y
      = under Y y := by
  refine View.canon_apply_of_pieces (Val := Elt Ideal) (S := S1x1024x256) (e := .f32) (under Y) _ ?_ y (cover0_6 _ _ _ _ _ _ _ _ y)
  intro p hp x
  simp only [List.mem_cons, List.mem_nil_iff, or_false] at hp
  rcases hp with rfl | rfl | rfl | rfl | rfl | rfl | rfl | rfl
  · exact piece_eq Y _ (pay1_apply Y) 896 inb_S1x1024x256_S1x128x256_0_896_0 x
  · exact piece_eq Y _ (pay19_apply Y) 768 inb_S1x1024x256_S1x128x256_0_768_0 x
  · exact piece_eq Y _ (pay18_apply Y) 640 inb_S1x1024x256_S1x128x256_0_640_0 x
  · exact piece_eq Y _ (pay17_apply Y) 512 inb_S1x1024x256_S1x128x256_0_512_0 x
  · exact piece_eq Y _ (pay16_apply Y) 384 inb_S1x1024x256_S1x128x256_0_384_0 x
  · exact piece_eq Y _ (pay15_apply Y) 256 inb_S1x1024x256_S1x128x256_0_256_0 x
  · exact piece_eq Y _ (pay14_apply Y) 128 inb_S1x1024x256_S1x128x256_0_128_0 x
  · exact piece_eq Y _ (pay13_apply Y) 0 inb_S1x1024x256_S1x128x256_0_0_0 x

end Cert.KernelIdeal.HandValue

end
-- ==== Proof.KFlush.lean ====
/-
  From the output block to the output array.

  Grid point t stages image t of the (16, 1024, 2048) pixel-major input, the whole weight matrix and the four
  batch-norm rows, and writes block t of the (16, 1024, 256) result.  The block it writes is, at every index
  (0, s, o), the one result of image t and channel o; so it is block t of a single function of the arrays the
  region finds, the sixteen blocks fill the result array, and after the run the array is that function.
-/
import proofs.«104195_g2000404444116002_pallasbulk_979_6_alg».proof.Proof.KPay
import proofs.«104195_g2000404444116002_pallasbulk_979_6_alg».proof.Proof.KBlock

noncomputable section

namespace Cert.KernelIdeal.HandValue

open Idealize.ShloMosaic Idealize.ShloMosaic.ValueIdx Idealize.ShloMosaic.TcCoe Idealize.SL.Sem
open Cert.KernelIdeal Cert.KernelIdeal.Gen
open Idealize.ShloMosaic.Pipeline (Dat)
open scoped BigOperators

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of the seven windows at grid point t: the image windows move with t on the first axis,
    every other window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The image window's block at point t, read at x, is the region's pixel-major array at an index k on image t. -/
theorem iblk0_at (c : Dev nD) (t : Fin cfg0.N) (x : S1x1024x2048.Idx) (k : S16x1024x2048.Idx)
    (h0 : (k 0).val = t.val) (h1 : (k 1).val = (x 1).val) (h2 : (k 2).val = (x 2).val) :
    (iblk m c 0 t : Vec Ideal S1x1024x2048 .f32) x = (V m c main_v1 : S16x1024x2048.Idx → EReal) k := by
  obtain ⟨e0, e1, e2, -⟩ := idx_facts t
  have hx : (x 0).val < 1 := (x 0).isLt
  unfold iblk
  rw [View.read_apply]
  show V m c main_v1 _ = V m c main_v1 k
  refine congrArg (V m c main_v1) (funext fun a => Fin.ext ?_)
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 2048 + 1 * (x 2).val = (k 2).val; omega

/-- The weight window's one block is the whole weight matrix. -/
theorem iblk1_at (c : Dev nD) (t : Fin cfg0.N) (x : S256x2048.Idx) :
    (iblk m c 1 t : Vec Ideal S256x2048 .f32) x = (V m c main_arg1 : S256x2048.Idx → EReal) x := by
  obtain ⟨-, -, -, e0, e1, -⟩ := idx_facts t
  unfold iblk
  rw [View.read_apply]
  show V m c main_arg1 _ = V m c main_arg1 x
  refine congrArg (V m c main_arg1) (funext fun a => Fin.ext ?_)
  match a with
  | ⟨0, _⟩ => show win0_1.index t (0 : Fin 2) * 256 + 1 * (x 0).val = (x 0).val; omega
  | ⟨1, _⟩ => show win0_1.index t (1 : Fin 2) * 2048 + 1 * (x 1).val = (x 1).val; omega

/-- Each batch-norm window's one block is its whole (1, 256) row. -/
theorem iblk2_at (c : Dev nD) (t : Fin cfg0.N) (x : S1x256.Idx) :
    (iblk m c 2 t : Vec Ideal S1x256 .f32) x = (V m c main_v2 : S1x256.Idx → EReal) x := by
  obtain ⟨-, -, -, -, -, e0, e1, -⟩ := idx_facts t
  unfold iblk
  rw [View.read_apply]
  show V m c main_v2 _ = V m c main_v2 x
  refine congrArg (V m c main_v2) (funext fun a => Fin.ext ?_)
  match a with
  | ⟨0, _⟩ => show win0_2.index t (0 : Fin 2) * 1 + 1 * (x 0).val = (x 0).val; omega
  | ⟨1, _⟩ => show win0_2.index t (1 : Fin 2) * 256 + 1 * (x 1).val = (x 1).val; omega
theorem iblk3_at (c : Dev nD) (t : Fin cfg0.N) (x : S1x256.Idx) :
    (iblk m c 3 t : Vec Ideal S1x256 .f32) x = (V m c main_v3 : S1x256.Idx → EReal) x := by
  obtain ⟨-, -, -, -, -, -, -, e0, e1, -⟩ := idx_facts t
  unfold iblk
  rw [View.read_apply]
  show V m c main_v3 _ = V m c main_v3 x
  refine congrArg (V m c main_v3) (funext fun a => Fin.ext ?_)
  match a with
  | ⟨0, _⟩ => show win0_3.index t (0 : Fin 2) * 1 + 1 * (x 0).val = (x 0).val; omega
  | ⟨1, _⟩ => show win0_3.index t (1 : Fin 2) * 256 + 1 * (x 1).val = (x 1).val; omega
theorem iblk4_at (c : Dev nD) (t : Fin cfg0.N) (x : S1x256.Idx) :
    (iblk m c 4 t : Vec Ideal S1x256 .f32) x = (V m c main_v4 : S1x256.Idx → EReal) x := by
  obtain ⟨-, -, -, -, -, -, -, -, -, e0, e1, -⟩ := idx_facts t
  unfold iblk
  rw [View.read_apply]
  show V m c main_v4 _ = V m c main_v4 x
  refine congrArg (V m c main_v4) (funext fun a => Fin.ext ?_)
  match a with
  | ⟨0, _⟩ => show win0_4.index t (0 : Fin 2) * 1 + 1 * (x 0).val = (x 0).val; omega
  | ⟨1, _⟩ => show win0_4.index t (1 : Fin 2) * 256 + 1 * (x 1).val = (x 1).val; omega
theorem iblk5_at (c : Dev nD) (t : Fin cfg0.N) (x : S1x256.Idx) :
    (iblk m c 5 t : Vec Ideal S1x256 .f32) x = (V m c main_v5 : S1x256.Idx → EReal) x := by
  obtain ⟨-, -, -, -, -, -, -, -, -, -, -, e0, e1, -⟩ := idx_facts t
  unfold iblk
  rw [View.read_apply]
  show V m c main_v5 _ = V m c main_v5 x
  refine congrArg (V m c main_v5) (funext fun a => Fin.ext ?_)
  match a with
  | ⟨0, _⟩ => show win0_5.index t (0 : Fin 2) * 1 + 1 * (x 0).val = (x 0).val; omega
  | ⟨1, _⟩ => show win0_5.index t (1 : Fin 2) * 256 + 1 * (x 1).val = (x 1).val; omega

/-- The result array as one function of the arrays the region finds: at (b, s, o), the one result of image b and
    output channel o (the same at every pixel s). -/
def arrVal (Xt : S16x1024x2048.Idx → EReal) (W : S256x2048.Idx → EReal) (γ var β μ : S1x256.Idx → EReal) :
    S16x1024x256.Idx → EReal := fun i =>
  chanVal (fun s c => Xt (ix3 ⟨(i 0).val, (i 0).isLt⟩ s c)) (fun c => W (ix2 ⟨(i 2).val, (i 2).isLt⟩ c))
    (γ (ix2 0 ⟨(i 2).val, (i 2).isLt⟩)) (var (ix2 0 ⟨(i 2).val, (i 2).isLt⟩))
    (β (ix2 0 ⟨(i 2).val, (i 2).isLt⟩)) (μ (ix2 0 ⟨(i 2).val, (i 2).isLt⟩))

/-- What point t writes back is block t of `arrVal` of the arrays as the region finds them. -/
theorem flushed_eq (c : Dev nD) (t : Fin cfg0.N) :
    (dats m 0 c).flushed 6 t = ((cfg0.win 6).blk t).view.read (Elt Ideal)
      (arrVal (V m c main_v1) (V m c main_arg1) (V m c main_v2) (V m c main_v5) (V m c main_v3) (V m c main_v4)) := by
  show (cfg0.win 6).cut (grid0.coords t) ((dats m 0 c).after 6 t) = _
  rw [after0_6]
  funext j
  obtain ⟨p, s, o, rfl⟩ : ∃ (p : Fin 1) (s : Fin 1024) (o : Fin 256), j = (ix3 p s o : S1x1024x256.Idx) :=
    ⟨j 0, j 1, j 2, eq_ix3 (n0 := 1) (n1 := 1024) (n2 := 256) j⟩
  show out0_6 (iblk m c 0 t) (iblk m c 1 t) (iblk m c 2 t) (iblk m c 3 t) (iblk m c 4 t) (iblk m c 5 t) (ix3 p s o)
    = arrVal (V m c main_v1) (V m c main_arg1) (V m c main_v2) (V m c main_v5) (V m c main_v3) (V m c main_v4)
        (((cfg0.win 6).blk t).view.emb (ix3 p s o))
  unfold out0_6
  refine (canon_tiles _ (ix3 p s o)).trans ?_
  simp only [View.ld_unit_zero (S := S1x1024x2048) hz3, View.ld_unit_zero (S := S256x2048) hz2,
    View.ld_unit_zero (S := S1x256) hz2]
  show rowOut (iblk m c 0 t) (iblk m c 1 t) (iblk m c 2 t) (iblk m c 5 t) (iblk m c 3 t) (iblk m c 4 t) (ix2 0 o) = _
  rw [rowOut_apply]
  obtain ⟨-, -, -, -, -, -, -, -, -, -, -, -, -, e0, e1, e2⟩ := idx_facts t
  have hp : p.val < 1 := p.isLt
  have hb : ((((cfg0.win 6).blk t).view.emb (ix3 p s o) : S16x1024x256.Idx) 0).val = t.val := by
    show win0_6.index t (0 : Fin 3) * 1 + 1 * p.val = t.val; omega
  have ho : ((((cfg0.win 6).blk t).view.emb (ix3 p s o) : S16x1024x256.Idx) 2).val = o.val := by
    show win0_6.index t (2 : Fin 3) * 256 + 1 * o.val = o.val; omega
  unfold arrVal
  have hO : (⟨((((cfg0.win 6).blk t).view.emb (ix3 p s o) : S16x1024x256.Idx) 2).val,
      ((((cfg0.win 6).blk t).view.emb (ix3 p s o) : S16x1024x256.Idx) 2).isLt⟩ : Fin 256) = o := Fin.ext ho
  rw [hO]
  rw [show (fun (s' : Fin 1024) (c' : Fin 2048) => (iblk m c 0 t : Vec Ideal S1x1024x2048 .f32) (ix3 0 s' c'))
        = fun s' c' => (V m c main_v1 : S16x1024x2048.Idx → EReal)
            (ix3 ⟨((((cfg0.win 6).blk t).view.emb (ix3 p s o) : S16x1024x256.Idx) 0).val,
              ((((cfg0.win 6).blk t).view.emb (ix3 p s o) : S16x1024x256.Idx) 0).isLt⟩ s' c')
      from funext fun s' => funext fun c' => iblk0_at m c t _ _ hb rfl rfl,
    show (fun c' : Fin 2048 => (iblk m c 1 t : Vec Ideal S256x2048 .f32) (ix2 o c'))
        = fun c' => (V m c main_arg1 : S256x2048.Idx → EReal) (ix2 o c') from funext fun c' => iblk1_at m c t _,
    iblk2_at, iblk3_at, iblk4_at, iblk5_at]

/-- An index of the result array is in point t's block iff each coordinate is in the block's range on its axis. -/
theorem mem_blk6 (t : Fin cfg0.N) (i : S16x1024x256.Idx) :
    i ∈ ((cfg0.win 6).blk t).view.set ↔ ∀ a : Fin 3, win0_6.index t a * S1x1024x256.size a ≤ (i a).val
      ∧ (i a).val < win0_6.index t a * S1x1024x256.size a + S1x1024x256.size a := by
  show i ∈ ((View.whole main_v6).slice (win0_6.rect t)).set ↔ _
  rw [View.set_slice_whole, Rect.mem_set_unit]
  exact Iff.rfl

/-- Every index of the result array is in some point's block: index (b, s, o) in point b's. -/
theorem cover6 (i : S16x1024x256.Idx) :
    ∃ t : Fin cfg0.N, (cfg0.win 6).flush t = true ∧ i ∈ ((cfg0.win 6).blk t).view.set := by
  have hN : cfg0.N = 16 := N_0
  have hi0 : (i 0).val < 16 := (i 0).isLt
  have hi1 : (i 1).val < 1024 := (i 1).isLt
  have hi2 : (i 2).val < 256 := (i 2).isLt
  refine ⟨⟨(i 0).val, by omega⟩, flush0_6 _, ?_⟩
  rw [mem_blk6]
  obtain ⟨-, -, -, -, -, -, -, -, -, -, -, -, -, e0', e1, e2⟩ := idx_facts ⟨(i 0).val, by omega⟩
  have e0 : win0_6.index (⟨(i 0).val, by omega⟩ : Fin cfg0.N) (0 : Fin 3) = (i 0).val := e0'
  intro a
  match a with
  | ⟨0, _⟩ =>
    show win0_6.index ⟨(i 0).val, _⟩ (0 : Fin 3) * 1 ≤ (i 0).val ∧ (i 0).val < win0_6.index ⟨(i 0).val, _⟩ (0 : Fin 3) * 1 + 1
    rw [e0]; omega
  | ⟨1, _⟩ =>
    show win0_6.index ⟨(i 0).val, _⟩ (1 : Fin 3) * 1024 ≤ (i 1).val ∧ (i 1).val < win0_6.index ⟨(i 0).val, _⟩ (1 : Fin 3) * 1024 + 1024
    rw [e1]; omega
  | ⟨2, _⟩ =>
    show win0_6.index ⟨(i 0).val, _⟩ (2 : Fin 3) * 256 ≤ (i 2).val ∧ (i 2).val < win0_6.index ⟨(i 0).val, _⟩ (2 : Fin 3) * 256 + 256
    rw [e2]; omega

/-- The result array after the run. -/
theorem final6 (c : Dev nD) : (dats m 0 c).arrAt 6 cfg0.N
    = arrVal (V m c main_v1) (V m c main_arg1) (V m c main_v2) (V m c main_v5) (V m c main_v3) (V m c main_v4) :=
  (dats m 0 c).arrAt_eq_of_cover 6 _ (fun t _ => flushed_eq m c t) cover6

end Cert.KernelIdeal.HandValue

end
-- ==== Proof.Spec.lean ====
/-
  The mathematics of the claim, with no program in sight.

  Both programs compute, for image `b` and output channel `o`, the ReLU of an affine function of the
  pooled activations: with `a c = ∑ s, X[b, c, s]` the spatial sum of input channel `c` and
  `σ o` the batch-norm scale,
    kernel     max ((∑ c, a c * W[o, c]) * (σK o * 2⁻¹⁰) + (β o - μ o * σK o)) 0,   σK o = γ o * rsqrt (v o + ε)
    reference  max ((∑ c, a c * ((W[o, c] * σR o) * 2⁻¹⁰)) + (β o - μ o * σR o)) 0,  σR o = γ o / sqrt (v o + ε)
  and broadcast it over the 32 × 32 pixels.  On finite inputs with `v ≥ 0` the two scales are the same real
  number (`v + ε > 0`), and the factor `σ * 2⁻¹⁰` moves across the finite sum by distributivity in ℝ.
-/
import Idealize.ShloMosaic.PureOps.Ideal
import Idealize.ShloMosaic.Lib.ValueIdx

noncomputable section

namespace Cert.Spec

open Idealize.ShloMosaic Idealize.ShloMosaic.ValueIdx

/-- The shapes of the six arguments and of the result. -/
abbrev SX : Shape := ⟨4, ![16, 2048, 32, 32]⟩
abbrev SW : Shape := ⟨2, ![256, 2048]⟩
abbrev SC : Shape := ⟨1, ![256]⟩
abbrev SO : Shape := ⟨4, ![16, 256, 32, 32]⟩

/-- The variance guard `ε` and the mean factor `1/1024`, as the words both programs carry. -/
abbrev eps : EReal := Ideal.ofBits .f32 0x3727C5AC#32
abbrev invHW : EReal := Ideal.ofBits .f32 0x3A800000#32

/-- Pixel `s` of a flattened 32 × 32 image: row `s / 32`, column `s % 32`. -/
abbrev pixRow (s : Fin 1024) : Fin 32 := ⟨s.val / 32, by omega⟩
abbrev pixCol (s : Fin 1024) : Fin 32 := ⟨s.val % 32, by omega⟩

/-- The sum of input channel `c` of image `b` over its 1024 pixels. -/
def chanSum (X : SX.Idx → EReal) (b : Fin 16) (c : Fin 2048) : EReal :=
  ∑ s : Fin 1024, X (ix4 b c (pixRow s) (pixCol s))

/-- The kernel's batch-norm scale: `γ · rsqrt (v + ε)`. -/
def scaleK (γ v : SC.Idx → EReal) (o : Fin 256) : EReal := γ (ix1 o) * Ideal.rsqrt (v (ix1 o) + eps)

/-- The reference's batch-norm scale: `γ / sqrt (v + ε)`. -/
def scaleR (γ v : SC.Idx → EReal) (o : Fin 256) : EReal := Ideal.div (γ (ix1 o)) (Ideal.sqrt (v (ix1 o) + eps))

/-- The kernel's value at image `b`, output channel `o`: the matrix product first, the scale after. -/
def yK (X : SX.Idx → EReal) (W : SW.Idx → EReal) (γ β μ v : SC.Idx → EReal) (b : Fin 16) (o : Fin 256) : EReal :=
  max ((∑ c : Fin 2048, chanSum X b c * W (ix2 o c)) * (scaleK γ v o * invHW)
        + (β (ix1 o) - μ (ix1 o) * scaleK γ v o)) 0

/-- The reference's value: the scale folded into the weights before the product. -/
def yR (X : SX.Idx → EReal) (W : SW.Idx → EReal) (γ β μ v : SC.Idx → EReal) (b : Fin 16) (o : Fin 256) : EReal :=
  max ((∑ c : Fin 2048, chanSum X b c * ((W (ix2 o c) * scaleR γ v o) * invHW))
        + (β (ix1 o) - μ (ix1 o) * scaleR γ v o)) 0

/-- The result arrays: the per-channel value at every pixel. -/
def outK (X : SX.Idx → EReal) (W : SW.Idx → EReal) (γ β μ v : SC.Idx → EReal) : SO.Idx → EReal :=
  fun j => yK X W γ β μ v (j 0) (j 1)
def outR (X : SX.Idx → EReal) (W : SW.Idx → EReal) (γ β μ v : SC.Idx → EReal) : SO.Idx → EReal :=
  fun j => yR X W γ β μ v (j 0) (j 1)

/-- An extended real that is a real number. -/
def Fin' (x : EReal) : Prop := x ≠ ⊤ ∧ x ≠ ⊥

end Cert.Spec

end
-- ==== Proof.KHost.lean ====
/-
  The kernel program's host operations, read one entry at a time, from any contents of the buffers they start from.

  Before the kernel the program moves the channel axis of the input last and flattens the pixels: entry `(b, s, c)` of
  the `[16, 1024, 2048]` array is the input's `(b, c, s / 32, s % 32)`; and it reads each of the four batch-norm vectors
  as a one-row matrix: entry `(0, o)` is entry `o`. After the kernel it undoes the flattening and moves the channel
  axis back: entry `(b, o, h, w)` of the result is entry `(b, 32 h + w, o)` of the kernel's `[16, 1024, 256]` output.
  A change of shape keeps the row-major position; a transpose reads the operand at the permuted coordinates.
-/
import proofs.«104195_g2000404444116002_pallasbulk_979_6_alg».proof.Proof.Gen.KernelIdeal.Launch
import proofs.«104195_g2000404444116002_pallasbulk_979_6_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen
open Idealize.ShloMosaic Idealize.ShloMosaic.ValueIdx Idealize.ShloMosaic.StableHlo Cert.Spec

variable (W : Valuation τ sig (Elt Ideal))

/-- The input with channels last and pixels flattened: entry `(b, s, c)` is the input at image `b`, channel `c`,
    row `s / 32`, column `s % 32`. -/
theorem khost_v1 (b : Fin 16) (s : Fin 1024) (c : Fin 2048) :
    StableHlo.after (hostOps0 (F := Ideal)) W (Proc.devRef .tc main_v1) (ix3 b s c)
      = W (Proc.devRef .tc main_arg0) (ix4 b c (pixRow s) (pixCol s)) := by
  after_results
  show shapeCast S16x1024x2048
      (transpose S16x32x32x2048 [0, 2, 3, 1] (W (Proc.devRef .tc main_arg0)) transposes_S16x2048x32x32_S16x32x32x2048_0_2_3_1)
      shapeCasts_S16x32x32x2048_S16x1024x2048 (ix3 b s c) = _
  refine (shapeCast_apply _ _ (ix3 b s c) (ix4 b (pixRow s) (pixCol s) c) ?_).trans ?_
  · show (S16x32x32x2048.rowMajor (ix4 b (pixRow s) (pixCol s) c)).val = (S16x1024x2048.rowMajor (ix3 b s c)).val
    rw [Shape.rowMajor_val_four, Shape.rowMajor_val_three]
    show ((b.val * 32 + s.val / 32) * 32 + s.val % 32) * 2048 + c.val = (b.val * 1024 + s.val) * 2048 + c.val
    omega
  · exact transpose_apply _ _ _ _ (ix4 b c (pixRow s) (pixCol s))
      (fun a => match a with | ⟨0, _⟩ => rfl | ⟨1, _⟩ => rfl | ⟨2, _⟩ => rfl | ⟨3, _⟩ => rfl)

/-- `γ` as a one-row matrix. -/
theorem khost_v2 (o : Fin 256) :
    StableHlo.after (hostOps0 (F := Ideal)) W (Proc.devRef .tc main_v2) (ix2 (0 : Fin 1) o)
      = W (Proc.devRef .tc main_arg2) (ix1 o) := by
  after_results
  show shapeCast S1x256 (W (Proc.devRef .tc main_arg2)) shapeCasts_S256_S1x256 (ix2 (0 : Fin 1) o) = _
  exact shapeCast_a_1a_apply _ _ (0 : Fin 1) o

/-- `β` as a one-row matrix. -/
theorem khost_v3 (o : Fin 256) :
    StableHlo.after (hostOps0 (F := Ideal)) W (Proc.devRef .tc main_v3) (ix2 (0 : Fin 1) o)
      = W (Proc.devRef .tc main_arg3) (ix1 o) := by
  after_results
  show shapeCast S1x256 (W (Proc.devRef .tc main_arg3)) shapeCasts_S256_S1x256 (ix2 (0 : Fin 1) o) = _
  exact shapeCast_a_1a_apply _ _ (0 : Fin 1) o

/-- `μ` as a one-row matrix. -/
theorem khost_v4 (o : Fin 256) :
    StableHlo.after (hostOps0 (F := Ideal)) W (Proc.devRef .tc main_v4) (ix2 (0 : Fin 1) o)
      = W (Proc.devRef .tc main_arg4) (ix1 o) := by
  after_results
  show shapeCast S1x256 (W (Proc.devRef .tc main_arg4)) shapeCasts_S256_S1x256 (ix2 (0 : Fin 1) o) = _
  exact shapeCast_a_1a_apply _ _ (0 : Fin 1) o

/-- The variance as a one-row matrix. -/
theorem khost_v5 (o : Fin 256) :
    StableHlo.after (hostOps0 (F := Ideal)) W (Proc.devRef .tc main_v5) (ix2 (0 : Fin 1) o)
      = W (Proc.devRef .tc main_arg5) (ix1 o) := by
  after_results
  show shapeCast S1x256 (W (Proc.devRef .tc main_arg5)) shapeCasts_S256_S1x256 (ix2 (0 : Fin 1) o) = _
  exact shapeCast_a_1a_apply _ _ (0 : Fin 1) o

/-- The result: entry `(b, o, h, w)` is the kernel's output at image `b`, pixel `32 h + w`, channel `o`. -/
theorem khost_v8 (b : Fin 16) (o : Fin 256) (h w : Fin 32) :
    StableHlo.after (hostOps1 (F := Ideal)) W (Proc.devRef .tc main_v8) (ix4 b o h w)
      = W (Proc.devRef .tc main_v6) (ix3 b ⟨h.val * 32 + w.val, by omega⟩ o) := by
  after_results
  show transpose S16x256x32x32 [0, 3, 1, 2]
      (shapeCast S16x32x32x256 (W (Proc.devRef .tc main_v6)) shapeCasts_S16x1024x256_S16x32x32x256)
      transposes_S16x32x32x256_S16x256x32x32_0_3_1_2 (ix4 b o h w) = _
  refine (transpose_apply _ _ _ (ix4 b o h w) (ix4 b h w o)
    (fun a => match a with | ⟨0, _⟩ => rfl | ⟨1, _⟩ => rfl | ⟨2, _⟩ => rfl | ⟨3, _⟩ => rfl)).trans ?_
  refine shapeCast_apply _ _ _ _ ?_
  show (S16x1024x256.rowMajor (ix3 b (⟨h.val * 32 + w.val, by omega⟩ : Fin 1024) o)).val
      = (S16x32x32x256.rowMajor (ix4 b h w o)).val
  rw [Shape.rowMajor_val_three, Shape.rowMajor_val_four]
  show (b.val * 1024 + (h.val * 32 + w.val)) * 256 + o.val = ((b.val * 32 + h.val) * 32 + w.val) * 256 + o.val
  omega

end Cert.KernelIdeal.HandValue

end
-- ==== Proof.KRun.lean ====
/-
  The kernel program's run, with its result named.

  Before the region the program lays the input out pixel-major, (b, s, c) ↦ x[b, c, s / 32, s % 32], and reads
  each batch-norm vector as a one-row matrix; after it, entry (b, o, h, w) of the result is entry (b, 32 h + w, o)
  of the region's (16, 1024, 256) array.  That array holds, at (b, s, o), the one result of image b and channel o;
  so the program's result at (b, o, h, w) is that value at every pixel — the function `Cert.Spec.outK` of the six
  arguments — and the arguments end unchanged.
-/
import proofs.«104195_g2000404444116002_pallasbulk_979_6_alg».proof.Proof.KFlush
import proofs.«104195_g2000404444116002_pallasbulk_979_6_alg».proof.Proof.KHost
import proofs.«104195_g2000404444116002_pallasbulk_979_6_alg».proof.Proof.Spec

noncomputable section

namespace Cert.KernelIdeal.HandValue

open Idealize.ShloMosaic Idealize.ShloMosaic.ValueIdx Idealize.ShloMosaic.TcCoe Idealize.SL.Sem
open Cert.KernelIdeal Cert.KernelIdeal.Gen Cert.Spec
open Idealize.ShloMosaic.Pipeline (Dat)
open scoped BigOperators

variable (m : (ℓ : Loc nD τ sig) → Buf (Elt Ideal) ℓ) (ρ : Dev nD → PrngReg)

/-- The pixel-major input as the region finds it. -/
theorem V_v1_at (c : Dev nD) (b : Fin 16) (s : Fin 1024) (c' : Fin 2048) :
    (V m c main_v1 : S16x1024x2048.Idx → EReal) (ix3 b s c')
      = (m ((c : Thread nD τ).loc main_arg0) : SX.Idx → EReal) (ix4 b c' (pixRow s) (pixCol s)) := by
  show StableHlo.after (hostOps0 (F := Ideal)) (fun b => m (c, b)) (Proc.devRef .tc main_v1) (ix3 b s c') = _
  exact khost_v1 (fun b => m (c, b)) b s c'

/-- The four batch-norm rows as the region finds them. -/
theorem V_v2_at (c : Dev nD) (o : Fin 256) :
    (V m c main_v2 : S1x256.Idx → EReal) (ix2 (0 : Fin 1) o) = (m ((c : Thread nD τ).loc main_arg2) : SC.Idx → EReal) (ix1 o) := by
  show StableHlo.after (hostOps0 (F := Ideal)) (fun b => m (c, b)) (Proc.devRef .tc main_v2) (ix2 (0 : Fin 1) o) = _
  exact khost_v2 (fun b => m (c, b)) o
theorem V_v3_at (c : Dev nD) (o : Fin 256) :
    (V m c main_v3 : S1x256.Idx → EReal) (ix2 (0 : Fin 1) o) = (m ((c : Thread nD τ).loc main_arg3) : SC.Idx → EReal) (ix1 o) := by
  show StableHlo.after (hostOps0 (F := Ideal)) (fun b => m (c, b)) (Proc.devRef .tc main_v3) (ix2 (0 : Fin 1) o) = _
  exact khost_v3 (fun b => m (c, b)) o
theorem V_v4_at (c : Dev nD) (o : Fin 256) :
    (V m c main_v4 : S1x256.Idx → EReal) (ix2 (0 : Fin 1) o) = (m ((c : Thread nD τ).loc main_arg4) : SC.Idx → EReal) (ix1 o) := by
  show StableHlo.after (hostOps0 (F := Ideal)) (fun b => m (c, b)) (Proc.devRef .tc main_v4) (ix2 (0 : Fin 1) o) = _
  exact khost_v4 (fun b => m (c, b)) o
theorem V_v5_at (c : Dev nD) (o : Fin 256) :
    (V m c main_v5 : S1x256.Idx → EReal) (ix2 (0 : Fin 1) o) = (m ((c : Thread nD τ).loc main_arg5) : SC.Idx → EReal) (ix1 o) := by
  show StableHlo.after (hostOps0 (F := Ideal)) (fun b => m (c, b)) (Proc.devRef .tc main_v5) (ix2 (0 : Fin 1) o) = _
  exact khost_v5 (fun b => m (c, b)) o

/-- The specification's value is the one result of an image and a channel, read off the six arguments. -/
theorem yK_eq_chanVal (X : SX.Idx → EReal) (W : SW.Idx → EReal) (γ β μ v : SC.Idx → EReal) (b : Fin 16) (o : Fin 256) :
    yK X W γ β μ v b o
      = chanVal (fun s c => X (ix4 b c (pixRow s) (pixCol s))) (fun c => W (ix2 o c)) (γ (ix1 o)) (v (ix1 o)) (β (ix1 o)) (μ (ix1 o)) := rfl

/-- The program's result after the lines that follow the region. -/
theorem tail_v8 (c : Dev nD) :
    Pipeline.afterTail₀ cfgs (dats m) 0 (V0 m) [hostOps1] c main_v8
      = outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨b, o, h, w, rfl⟩ : ∃ (b : Fin 16) (o : Fin 256) (h w : Fin 32), j = (ix4 b o h w : SO.Idx) :=
    ⟨j 0, j 1, j 2, j 3, eq_ix4 (n0 := 16) (n1 := 256) (n2 := 32) (n3 := 32) j⟩
  unfold Pipeline.afterTail₀
  show StableHlo.after (hostOps1 (F := Ideal)) _ (Proc.devRef .tc main_v8) (ix4 b o h w) = _
  rw [khost_v8]
  have hA : Pipeline.withArrays (cfgs 0).spec c (V0 m c) (fun w => (dats m 0 c).arrAt w (cfgs 0).N) (Proc.devRef .tc main_v6)
      = (dats m 0 c).arrAt 6 cfg0.N := Pipeline.withArrays_arr spec0 launch0.win.arr_inj c _ _ 6
  rw [hA, final6]
  show chanVal (fun s c' => (V m c main_v1 : S16x1024x2048.Idx → EReal) (ix3 b s c'))
      (fun c' => (V m c main_arg1 : S256x2048.Idx → EReal) (ix2 o c'))
      ((V m c main_v2 : S1x256.Idx → EReal) (ix2 (0 : Fin 1) o)) ((V m c main_v5 : S1x256.Idx → EReal) (ix2 (0 : Fin 1) o))
      ((V m c main_v3 : S1x256.Idx → EReal) (ix2 (0 : Fin 1) o)) ((V m c main_v4 : S1x256.Idx → EReal) (ix2 (0 : Fin 1) o)) = _
  rw [V_v2_at, V_v3_at, V_v4_at, V_v5_at, V_main_arg1 m c,
    show (fun (s : Fin 1024) (c' : Fin 2048) => (V m c main_v1 : S16x1024x2048.Idx → EReal) (ix3 b s c'))
      = fun s c' => (m ((c : Thread nD τ).loc main_arg0) : SX.Idx → EReal) (ix4 b c' (pixRow s) (pixCol s))
      from funext fun s => funext fun c' => V_v1_at m c b s c']
  exact (yK_eq_chanVal _ _ _ _ _ _ b o).symm

set_option backward.isDefEq.respectTransparency.types false in
/-- THE RUN: every weakly fair execution of the kernel program at the ideal values terminates with the result at
    `Cert.Spec.outK` of the six arguments and the arguments unchanged. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread nD τ).loc main_v8)
        = outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HandValue

end
-- ==== Proof.R0Base.lean ====
/-
  The pooling region of the reference (its first kernel: grid 16 × 4, the second axis walking the four tiles of 512
  input channels), stated at the buffer contents `V` the region is entered with: each window's block at a grid
  point, the two branch conditions of the body decided over the grid (the accumulator is reset at the first tile,
  `t % 4 = 0`, and the result is stored at the last, `t % 4 = 3`), where the output window is idle, and the
  class invariant with the accumulator scratch named.
-/
import proofs.«104195_g2000404444116002_pallasbulk_979_6_alg».proof.Proof.Gen.ReferenceIdeal.Launch
import proofs.«104195_g2000404444116002_pallasbulk_979_6_alg».proof.Proof.Gen.ReferenceIdeal.Skeleton
import proofs.«104195_g2000404444116002_pallasbulk_979_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first channel tile": the condition under which the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last channel tile": the condition under which the result is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the result window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile it is live. -/
theorem liveAt0_3 : ∀ t : Fin cfg0.N, cond0_1 (grid0.coords t) → cfg0.idle 3 (grid0.coords t) = false := by decide +kernel

/-! ## The staging and scratch memrefs -/

abbrev VO0_3 : View sig .tc .vmem S1x1x256 .f32 := (Memref.whole cc0_stg3_0 : Memref sig .tc .vmem S1x1x256 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
/-- The accumulator: a scratch of the kernel's own, carried from one channel tile to the next. -/
abbrev scM0_0 : Memref sig .tc .vmem S1x256 .f32 := Memref.whole cc0_scratch0
abbrev VS0_0 : View sig .tc .vmem S1x256 .f32 := scM0_0.view

/-- The scoped buffers of the other kernel, which this one never touches: each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant with the accumulator named: the accumulator at some contents, the other kernel's scoped
    buffers, the generator register. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

end Cert.ReferenceIdeal.Hand

end
-- ==== Proof.R0RunA.lean ====
/-
  The pooling kernel's body at a FIRST channel tile (`t % 4 = 0`): the accumulator is overwritten with zeros, then with
  zeros plus this tile's partial product; the result window is left untouched.  The accumulator's final contents are
  its two stores' pieces, named `LS0` below.
-/
import proofs.«104195_g2000404444116002_pallasbulk_979_6_alg».proof.Proof.R0Base

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A.  From whole staging buffers — the three inputs at their contents, the idle result buffer at any
    contents `xi3` (handed back as it was), the accumulator at anything — the body runs to its return with the
    accumulator written by the pieces `LS0`. -/
noncomputable def kernelRun0_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x512x1024 .f32) (x1 : Vec F S512x256 .f32) (x2 : Vec F S1x256 .f32) :
    { LS0 : List (View.Piece (Elt F) S1x256 .f32) //
      ∀ (xi3 : Vec F S1x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨?_, fun xi3 E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.R0RunB.lean ====
/-
  The pooling kernel's body at a MIDDLE channel tile (`t % 4 = 1, 2`): the accumulator, holding what the tile before
  left, is overwritten with itself plus this tile's partial product; the result window is left untouched.
-/
import proofs.«104195_g2000404444116002_pallasbulk_979_6_alg».proof.Proof.R0RunA

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B.  As case A, but the accumulator comes in at known contents `xs0`. -/
noncomputable def kernelRun0_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x512x1024 .f32) (x1 : Vec F S512x256 .f32) (x2 : Vec F S1x256 .f32) (xs0 : Vec F S1x256 .f32) :
    { LS0 : List (View.Piece (Elt F) S1x256 .f32) //
      ∀ (xi3 : Vec F S1x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨?_, fun xi3 E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.R0RunC.lean ====
/-
  The pooling kernel's body at a LAST channel tile (`t % 4 = 3`): the accumulator is overwritten with itself plus this
  tile's partial product, and the result buffer is stored with max (accumulator + shift, 0).
-/
import proofs.«104195_g2000404444116002_pallasbulk_979_6_alg».proof.Proof.R0RunB

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C.  The accumulator comes in at `xs0`; the result buffer, at anything, ends written by the pieces `L3`. -/
noncomputable def kernelRun0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x512x1024 .f32) (x1 : Vec F S512x256 .f32) (x2 : Vec F S1x256 .f32) (xs0 : Vec F S1x256 .f32) :
    Σ' (L3 : List (View.Piece (Elt F) S1x1x256 .f32)), { LS0 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pooled_kernel i arg2 harg2 arg3 harg3 arg4 harg4 arg5 harg5 arg6 harg6) K } := by
  refine ⟨?_, ?_, fun E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.Hand

end
-- ==== Proof.R0Data.lean ====
/-
  The pooling region of the reference, point by point.  Its grid runs image by image and, within an image, over the
  four tiles of 512 input channels.  The accumulator (a scratch buffer of the kernel's own) is reset at an image's
  first tile, added to at every tile, and at the last tile the result block max (accumulator + shift, 0) is stored.
  `outsAt0 n` is what the result's staging buffer and the accumulator hold after point `n`; the region's invariant
  carries the accumulator at that value from one point to the next.
-/
import proofs.«104195_g2000404444116002_pallasbulk_979_6_alg».proof.Proof.R0RunC

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The result buffer's contents at a point that stores nothing into it: a placeholder nothing consults (the
    window is idle there and not written back). -/
def idleOut : Vec F S1x1x256 .f32 := VO0_3.read (Elt F) (VO0_3.writes (Elt F) VO0_3.junk [])

theorem scover0_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i) (x0 : Vec F S1x512x1024 .f32) (x1 : Vec F S512x256 .f32) (x2 : Vec F S1x256 .f32) (y : S1x256.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1x256.size (by sl_kernel_rfl) y
/-- What a first tile leaves in the accumulator. -/
def sout0_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i) (x0 : Vec F S1x512x1024 .f32) (x1 : Vec F S512x256 .f32) (x2 : Vec F S1x256 .f32) : Vec F S1x256 .f32 :=
  VS0_0.read (Elt F) (VS0_0.writes (Elt F) VS0_0.junk (kernelRun0_A c i arg2 harg2 arg3 harg3 arg4 harg4 arg5 harg5 arg6 harg6 hc0 hc1 x0 x1 x2).1)

theorem scover0_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i) (x0 : Vec F S1x512x1024 .f32) (x1 : Vec F S512x256 .f32) (x2 : Vec F S1x256 .f32) (xs0 : Vec F S1x256 .f32) (y : S1x256.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1x256.size (by sl_kernel_rfl) y
/-- What a middle tile leaves in the accumulator, over what the tile before left. -/
def sout0_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i) (x0 : Vec F S1x512x1024 .f32) (x1 : Vec F S512x256 .f32) (x2 : Vec F S1x256 .f32) (xs0 : Vec F S1x256 .f32) : Vec F S1x256 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) (y : S1x1x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x256.size (by sl_kernel_rfl) y
/-- What a last tile leaves in the result's staging buffer. -/
def out0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) : Vec F S1x1x256 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) (y : S1x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x256.size (by sl_kernel_rfl) y
/-- What a last tile leaves in the accumulator. -/
def sout0_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) : Vec F S1x256 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the result buffer and the accumulator hold after each point -/

/-- After point `n`: (the result's staging buffer, the accumulator).  The case is read off `n % 4`; a middle or
    last tile continues from the accumulator the point before left. -/
def outsAt0 (c : Dev nD) : (n : ℕ) → n < cfg0.N → Vec F S1x1x256 .f32 × Vec F S1x256 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (idleOut, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idleOut, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class invariant; afterwards the accumulator at what the point before left, the other
    kernel's scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The proof data -/

/-- The arrays as the region finds them; after the body each input's buffer at its block, the result's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.ReferenceIdeal.Hand

end
-- ==== Proof.R0Body.lean ====
/-
  The pooling region's body obligation: at every grid point the body, called on the windows' staging buffers at the
  contents the proof data states and on the invariant, returns them at the next point's.  The case is decided by
  `t % 4`; the invariant hands the accumulator in at what the point before left (at anything before the very first
  point) and takes it back at this point's contents.
-/
import proofs.«104195_g2000404444116002_pallasbulk_979_6_alg».proof.Proof.R0Data

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulator's contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.ReferenceIdeal.Hand

end
-- ==== Proof.RefRegion1.lean ====
/-
  The second kernel region of the reference program: the broadcast of the pooled, normalised value over the pixels.

  The region's grid has one point per image `b`.  At that point the kernel reads the column `y[b, ·]` (a block of
  shape 1 × 256 × 1 of the array it is given), broadcasts it along a lane axis of length 128, and stores that same
  1 × 256 × 128 slab eight times, side by side, into the 1 × 256 × 1024 output block: after the body the output block
  holds `y[b, o]` at every pixel `s`.  The loads of the output block in front of each store are never used.

  Everything is stated at a parameter `V`, the contents of the core's buffers when the region is entered.
-/
import proofs.«104195_g2000404444116002_pallasbulk_979_6_alg».proof.Proof.Gen.ReferenceIdeal.Launch
import proofs.«104195_g2000404444116002_pallasbulk_979_6_alg».proof.Proof.Gen.ReferenceIdeal.Skeleton
import proofs.«104195_g2000404444116002_pallasbulk_979_6_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place: the window is fetched whole and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the column it loads, and the eight lane slabs it stores -/

abbrev r1_0 : Rect S1x256x1 := Rect.unit (s := S1x256x1) ![0, 0, 0] S1x256x1.size inb_S1x256x1_S1x256x1_0_0_0
abbrev r1_1 : Rect S1x256x1024 := Rect.unit (s := S1x256x1024) ![0, 0, 0] S1x256x128.size inb_S1x256x1024_S1x256x128_0_0_0
abbrev r1_2 : Rect S1x256x1024 := Rect.unit (s := S1x256x1024) ![0, 0, 128] S1x256x128.size inb_S1x256x1024_S1x256x128_0_0_128
abbrev r1_3 : Rect S1x256x1024 := Rect.unit (s := S1x256x1024) ![0, 0, 256] S1x256x128.size inb_S1x256x1024_S1x256x128_0_0_256
abbrev r1_4 : Rect S1x256x1024 := Rect.unit (s := S1x256x1024) ![0, 0, 384] S1x256x128.size inb_S1x256x1024_S1x256x128_0_0_384
abbrev r1_5 : Rect S1x256x1024 := Rect.unit (s := S1x256x1024) ![0, 0, 512] S1x256x128.size inb_S1x256x1024_S1x256x128_0_0_512
abbrev r1_6 : Rect S1x256x1024 := Rect.unit (s := S1x256x1024) ![0, 0, 640] S1x256x128.size inb_S1x256x1024_S1x256x128_0_0_640
abbrev r1_7 : Rect S1x256x1024 := Rect.unit (s := S1x256x1024) ![0, 0, 768] S1x256x128.size inb_S1x256x1024_S1x256x128_0_0_768
abbrev r1_8 : Rect S1x256x1024 := Rect.unit (s := S1x256x1024) ![0, 0, 896] S1x256x128.size inb_S1x256x1024_S1x256x128_0_0_896

/-! ## What the body leaves in the output window's buffer -/

/-- The output's staging buffer after the body, from the input block `x0`: the eight stores of the broadcast
    column as pieces, the last store first. -/
def out1_1 (x0 : Vec F S1x256x1 .f32) : Vec F S1x256x1024 .f32 :=
  View.canon [⟨r1_8, k1_pay1 (View.ld x0 r1_0)⟩, ⟨r1_7, k1_pay1 (View.ld x0 r1_0)⟩, ⟨r1_6, k1_pay1 (View.ld x0 r1_0)⟩,
    ⟨r1_5, k1_pay1 (View.ld x0 r1_0)⟩, ⟨r1_4, k1_pay1 (View.ld x0 r1_0)⟩, ⟨r1_3, k1_pay1 (View.ld x0 r1_0)⟩,
    ⟨r1_2, k1_pay1 (View.ld x0 r1_0)⟩, ⟨r1_1, k1_pay1 (View.ld x0 r1_0)⟩]

/-- The eight slabs tile the buffer along its last axis, so they cover it. -/
theorem cover1_1 (p0 p1 p2 p3 p4 p5 p6 p7 : Vec F S1x256x128 .f32) (y : S1x256x1024.Idx) :
    ∃ pc ∈ ([⟨r1_8, p0⟩, ⟨r1_7, p1⟩, ⟨r1_6, p2⟩, ⟨r1_5, p3⟩, ⟨r1_4, p4⟩, ⟨r1_3, p5⟩, ⟨r1_2, p6⟩, ⟨r1_1, p7⟩] : List (View.Piece (Elt F) S1x256x1024 .f32)), y ∈ pc.1.set :=
  View.cover_of_tiled [⟨r1_8, p0⟩, ⟨r1_7, p1⟩, ⟨r1_6, p2⟩, ⟨r1_5, p3⟩, ⟨r1_4, p4⟩, ⟨r1_3, p5⟩, ⟨r1_2, p6⟩, ⟨r1_1, p7⟩] S1x256x128.size (by rfl) y

/-! ## The body's triple -/

set_option maxHeartbeats 1000000 in
/-- The kernel body on whole staging memrefs, the input's at contents `x0` and the output's at anything, runs to the
    continuation holding the input's as it was and the output's at `out1_1 x0`. -/
theorem sound_kernel1 (c : Dev nD) (E : Set ℕ) (i : grid1.Coords) (arg2 : Memref sig .tc .vmem S1x256x1 .f32) (harg2 : arg2.IsWhole) (arg3 : Memref sig .tc .vmem S1x256x1024 .f32) (harg3 : arg3.IsWhole)
    (x0 : Vec F S1x256x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover1_1 _ _ _ _ _ _ _ _)

/-! ## The pipeline's proof data -/

/-- The proof data of this pipeline on core `c`: the arrays as the region finds them; after the body at point `t` the
    input's buffer at its block and the output's at `out1_1` of the input block; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefRun.lean ====
/-
  The reference's whole run.  Its @main is: host operations (the batch-norm fold, the folded weights, the flattened
  input), the pooling region, one reshape, the broadcast region, one reshape.  The buffer contents at each boundary
  are a fold from the launch memory — a host stretch applies its operations, a region leaves its arrays at what its
  write-backs amount to and every other buffer as it was — and the run ends with every unscoped buffer at the last
  fold `W5`.  Region 0 enters and leaves through the class invariant although between its points it carries the
  accumulator at named contents.
-/
import proofs.«104195_g2000404444116002_pallasbulk_979_6_alg».proof.Proof.R0Body
import proofs.«104195_g2000404444116002_pallasbulk_979_6_alg».proof.Proof.RefRegion1
import proofs.«104195_g2000404444116002_pallasbulk_979_6_alg».proof.Proof.Gen.ReferenceIdeal.Regions

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the pooling region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the broadcast region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape: the final contents. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W5 m ρ c)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (dat0 (V1 m ρ) c).Φ 0 := by
      have h' := hin0 (V1 m ρ) c; unfold Pipeline.ΦA at h'; exact h'
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h : (dat0 (V1 m ρ) c).Φ (Fin.last cfg0.N) ⊢ (iprop(Pipeline.scopedRest spec0 c ∗ ∃ r, prngReg c r) : sProp 𝕄) := by
      have h' := hout0 (V1 m ρ) c; unfold Pipeline.ΦA at h'; exact h'
    have h2 : (iprop(Pipeline.scopedRest spec0 c ∗ ∃ r, prngReg c r) : sProp 𝕄)
        ⊢ (iprop((∃ r, prngReg c r) ∗ BI.emp ∗ Pipeline.scopedRest spec0 c) : sProp 𝕄) := by
      iintro ⟨Hr, Hp⟩
      isplitl [Hp]; · iexact Hp
      isplitr; · iempintro
      iexact Hr
    rw [show (pdats m ρ 0 c).Φ (Fin.last _) = (dat0 (V1 m ρ) c).Φ (Fin.last cfg0.N) from rfl]
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of the reference terminates, nothing faulting, with every unscoped buffer at the
    last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => sep_mono .rfl
      (show R (F := F) c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      unfold Tₙ StableHlo.held
      iintro ⟨Hh, HSI⟩
      imodintro
      iapply (pointsTo_read_all (Pipeline.ucRefs τ sig) (fun b => (((c : Thread nD τ)).1, b)) (W5 m ρ c) s')
      isplitl [Hh] <;> iassumption)
    (hQ := fun s h c => h c)

end Cert.ReferenceIdeal.Hand

end
-- ==== Proof.RefRegion1Value.lean ====
/-
  The value of the reference's broadcast region: what the output array holds once every point has written its block
  back, as one function of the column array the region is given.

  At point `b` the body's eight stores each hold the same slab, the column `y[b, ·]` repeated along 128 lanes, so
  together they are one function of the block's index, `(0, o, s) ↦ y[b, o]`.  Block `b` of the output array is rows
  `b` of its first axis, block `b` of the input array likewise; hence the array ends at `(b, o, s) ↦ y[b, o, 0]`.
  The sixteen blocks cover the output array: index `(b, o, s)` lies in block `b`.
-/
import proofs.«104195_g2000404444116002_pallasbulk_979_6_alg».proof.Proof.RefRegion1
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.SL.Sem
open Idealize.ShloMosaic.Pipeline (Dat)
open Idealize.ShloMosaic.ValueIdx
open Cert.ReferenceIdeal Cert.ReferenceIdeal.Gen

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl

/-- Entry `o` of a column block. -/
abbrev col (o : Fin 256) : S1x256x1.Idx := ix3 (0 : Fin 1) o (0 : Fin 1)

/-- The broadcast slab at an index is the column's entry at the index's middle coordinate. -/
theorem k1_pay1_apply (v0 : Vec F S1x256x1 .f32) (o : Fin 256) (x : S1x256x128.Idx) (hx : (x 1).val = o.val) :
    k1_pay1 v0 x = v0 (col o) := by
  unfold k1_pay1
  rw [shapeCast_self, shapeCast_self]
  refine broadcastTo_apply _ _ x _ fun a => ?_
  match a with
  | ⟨0, _⟩ => rfl
  | ⟨1, _⟩ => exact hx.symm
  | ⟨2, _⟩ => rfl

/-- The output block after the body, at an index: the column's entry at the index's middle coordinate — the eight
    slabs are blocks of that one function, and they cover the block. -/
theorem out1_1_apply (x0 : Vec F S1x256x1 .f32) (o : Fin 256) (y : S1x256x1024.Idx) (hy : (y 1).val = o.val) :
    out1_1 x0 y = x0 (col o) := by
  have hG := View.canon_apply_of_pieces (Val := Elt F) (fun y' : S1x256x1024.Idx => x0 (col ⟨(y' 1).val, (y' 1).isLt⟩))
    [⟨r1_8, k1_pay1 (View.ld x0 r1_0)⟩, ⟨r1_7, k1_pay1 (View.ld x0 r1_0)⟩, ⟨r1_6, k1_pay1 (View.ld x0 r1_0)⟩,
      ⟨r1_5, k1_pay1 (View.ld x0 r1_0)⟩, ⟨r1_4, k1_pay1 (View.ld x0 r1_0)⟩, ⟨r1_3, k1_pay1 (View.ld x0 r1_0)⟩,
      ⟨r1_2, k1_pay1 (View.ld x0 r1_0)⟩, ⟨r1_1, k1_pay1 (View.ld x0 r1_0)⟩]
    (by
      intro p hp x
      simp only [List.mem_cons, List.not_mem_nil, or_false] at hp
      rcases hp with rfl | rfl | rfl | rfl | rfl | rfl | rfl | rfl <;>
      · refine (k1_pay1_apply (F := F) (View.ld x0 r1_0) ⟨(x 1).val, (x 1).isLt⟩ x rfl).trans ?_
        rw [View.ld_unit_zero (S := S1x256x1) hz3]
        refine congrArg x0 (funext fun a => ?_)
        match a with
        | ⟨0, _⟩ => rfl
        | ⟨1, _⟩ => exact Fin.ext (by show (x 1).val = 0 + 1 * (x 1).val; omega)
        | ⟨2, _⟩ => rfl)
    y (cover1_1 _ _ _ _ _ _ _ _ y)
  unfold out1_1
  refine hG.trans (congrArg x0 (funext fun a => ?_))
  match a with
  | ⟨0, _⟩ => rfl
  | ⟨1, _⟩ => exact Fin.ext hy
  | ⟨2, _⟩ => rfl

/-- The printed index maps over the grid: at point `t` both windows are at block `t` of the first axis and block 0
    of the others. -/
theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What the output array ends holding: at `(b, o, s)` the column array's entry `(b, o, 0)`. -/
def G1 (c : Dev nD) : S16x256x1024.Idx → Elt F .f32 :=
  fun j => (V c main_v15 : S16x256x1.Idx → Elt F .f32) (ix3 (j 0 : Fin 16) (j 1 : Fin 256) (0 : Fin 1))

/-- Entry `o` of the input window's block at point `t` is the column array's entry `(t, o, 0)`. -/
theorem iblk1_apply (c : Dev nD) (t : Fin cfg1.N) (o : Fin 256) (k : S16x256x1.Idx)
    (hk0 : (k 0).val = t.val) (hk1 : (k 1).val = o.val) :
    (iblk1 V c 0 t : Vec F S1x256x1 .f32) (col o) = (V c main_v15 : S16x256x1.Idx → Elt F .f32) k := by
  obtain ⟨e0, e1, e2, -, -, -⟩ := idx_facts1 t
  unfold iblk1
  rw [View.read_apply]
  show (V c main_v15 : S16x256x1.Idx → Elt F .f32) _ = (V c main_v15 : S16x256x1.Idx → Elt F .f32) _
  refine congrArg (V c main_v15 : S16x256x1.Idx → Elt F .f32) (funext fun a => Fin.ext ?_)
  have hk2 : (k 2).val < 1 := (k 2).isLt
  match a with
  | ⟨0, _⟩ => show win1_0.index t (0 : Fin 3) * 1 + 1 * 0 = (k 0).val; rw [e0, hk0]; omega
  | ⟨1, _⟩ => show win1_0.index t (1 : Fin 3) * 256 + 1 * o.val = (k 1).val; rw [e1, hk1]; omega
  | ⟨2, _⟩ => show win1_0.index t (2 : Fin 3) * 1 + 1 * 0 = (k 2).val; rw [e2]; omega

/-- What point `t` writes back is block `t` of `G1`. -/
theorem flushed1_eq (c : Dev nD) (t : Fin cfg1.N) :
    (dat1 V c).flushed 1 t = ((cfg1.win 1).blk t).view.read (Elt F) (G1 V c) := by
  show (cfg1.win 1).cut (grid1.coords t) ((dat1 V c).after 1 t) = _
  rw [after1_1]
  obtain ⟨-, -, -, e3, e4, e5⟩ := idx_facts1 t
  funext y
  have hy0 : (y 0).val < 1 := (y 0).isLt
  have hy1 : (y 1).val < 256 := (y 1).isLt
  rw [View.read_apply]
  show out1_1 (iblk1 V c 0 t) (fun a => ⟨(y a).val, _⟩) = G1 V c (((cfg1.win 1).blk t).view.emb y)
  refine (out1_1_apply (iblk1 V c 0 t) ⟨(y 1).val, hy1⟩ _ rfl).trans ?_
  unfold G1
  refine iblk1_apply V c t ⟨(y 1).val, hy1⟩ _ ?_ ?_
  · show win1_1.index t (0 : Fin 3) * 1 + 1 * (y 0).val = t.val; rw [e3]; omega
  · show win1_1.index t (1 : Fin 3) * 256 + 1 * (y 1).val = (y 1).val; rw [e4]; omega

/-- An index of the output array is in point `t`'s block iff each coordinate is in the block's range on its axis. -/
theorem mem_blk1 (t : Fin cfg1.N) (i : S16x256x1024.Idx) :
    i ∈ ((cfg1.win 1).blk t).view.set ↔ ∀ a : Fin 3, win1_1.index t a * S1x256x1024.size a ≤ (i a).val ∧ (i a).val < win1_1.index t a * S1x256x1024.size a + S1x256x1024.size a := by
  show i ∈ ((View.whole main_v16).slice (win1_1.rect t)).set ↔ _
  rw [View.set_slice_whole, Rect.mem_set_unit]
  exact Iff.rfl

/-- The sixteen blocks cover the output array: `(b, o, s)` lies in the block of point `b`. -/
theorem cover1 (i : S16x256x1024.Idx) :
    ∃ t : Fin cfg1.N, (cfg1.win 1).flush t = true ∧ i ∈ ((cfg1.win 1).blk t).view.set := by
  have hN : cfg1.N = 16 := N_1
  have h0 : (i 0).val < 16 := (i 0).isLt
  have h1 : (i 1).val < 256 := (i 1).isLt
  have h2 : (i 2).val < 1024 := (i 2).isLt
  obtain ⟨t, ht⟩ : ∃ t : Fin cfg1.N, t.val = (i 0).val := ⟨⟨(i 0).val, by rw [hN]; exact h0⟩, rfl⟩
  obtain ⟨-, -, -, e3, e4, e5⟩ := idx_facts1 t
  refine ⟨t, flush1_1 t, ?_⟩
  rw [mem_blk1]
  intro a
  match a with
  | ⟨0, _⟩ => show win1_1.index t (0 : Fin 3) * 1 ≤ (i 0).val ∧ (i 0).val < win1_1.index t (0 : Fin 3) * 1 + 1; rw [e3]; omega
  | ⟨1, _⟩ => show win1_1.index t (1 : Fin 3) * 256 ≤ (i 1).val ∧ (i 1).val < win1_1.index t (1 : Fin 3) * 256 + 256; rw [e4]; omega
  | ⟨2, _⟩ => show win1_1.index t (2 : Fin 3) * 1024 ≤ (i 2).val ∧ (i 2).val < win1_1.index t (2 : Fin 3) * 1024 + 1024; rw [e5]; omega

/-- The output array after the region: at `(b, o, s)` the entry `(b, o, 0)` of the column array the region was
    entered with. -/
theorem final1 (c : Dev nD) : (dat1 V c).arrAt 1 cfg1.N = G1 V c :=
  (dat1 V c).arrAt_eq_of_cover 1 (G1 V c) (fun t _ => flushed1_eq V c t) cover1

/-- `G1` at explicit coordinates. -/
theorem G1_apply (c : Dev nD) (b : Fin 16) (o : Fin 256) (s : Fin 1024) :
    G1 V c (ix3 b o s) = (V c main_v15 : S16x256x1.Idx → Elt F .f32) (ix3 b o (0 : Fin 1)) := rfl

/-- The output array after the region, at explicit coordinates. -/
theorem final1_apply (c : Dev nD) (b : Fin 16) (o : Fin 256) (s : Fin 1024) :
    ((dat1 V c).arrAt 1 cfg1.N : S16x256x1024.Idx → Elt F .f32) (ix3 b o s)
      = (V c main_v15 : S16x256x1.Idx → Elt F .f32) (ix3 b o (0 : Fin 1)) := by
  rw [final1]; rfl

end Cert.ReferenceIdeal.Hand

end
-- ==== Proof.R0Value.lean ====
/-
  The value of the reference's pooling region.  A point of the grid is (image, channel tile); the accumulator after a
  point is the body's sum payload of this tile's blocks and of the accumulator before (zeros at an image's first
  tile), and at an image's last tile the stored block is the final payload of the accumulator and the shift.  Only
  the last tile of each image writes its block back, block `b` of the result array, and those sixteen blocks cover
  it: the array ends holding, image by image, the final payload over the four tiles' nested sums.
-/
import proofs.«104195_g2000404444116002_pallasbulk_979_6_alg».proof.Proof.R0Data
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem zoff2 : (![0, 0] : Fin 2 → Nat) = fun _ => 0 := funext fun a => by fin_cases a <;> rfl
theorem zoff3 : (![0, 0, 0] : Fin 3 → Nat) = fun _ => 0 := funext fun a => by fin_cases a <;> rfl

/-! ## What each case's stores amount to -/

/-- A first tile leaves the sum payload over a zero accumulator. -/
theorem sout_A (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i) (x0 : Vec F S1x512x1024 .f32) (x1 : Vec F S512x256 .f32) (x2 : Vec F S1x256 .f32) :
    sout0_A c i arg2 harg2 arg3 harg3 arg4 harg4 arg5 harg5 arg6 harg6 hc0 hc1 x0 x1 x2 = k0_pay2 x0 (k0_pay1 (F := F)) x1 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1x256) zoff2, View.readCov_unit_zero (S := S1x256) _ zoff2]
  simp only [View.readAt_eq_ld, harg2.read_unread, harg3.read_unread, harg4.read_unread, harg6.read_unread, View.ld_unit_zero (S := S1x512x1024) zoff3, View.ld_unit_zero (S := S512x256) zoff2, View.ld_unit_zero (S := S1x256) zoff2]

/-- A middle tile leaves the sum payload over the accumulator it was handed. -/
theorem sout_B (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i) (x0 : Vec F S1x512x1024 .f32) (x1 : Vec F S512x256 .f32) (x2 : Vec F S1x256 .f32) (xs0 : Vec F S1x256 .f32) :
    sout0_B c i arg2 harg2 arg3 harg3 arg4 harg4 arg5 harg5 arg6 harg6 hc0 hc1 x0 x1 x2 xs0 = k0_pay2 x0 xs0 x1 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero zoff2]
  simp only [View.readAt_eq_ld, harg2.read_unread, harg3.read_unread, harg4.read_unread, harg6.read_unread, View.ld_unit_zero (S := S1x512x1024) zoff3, View.ld_unit_zero (S := S512x256) zoff2, View.ld_unit_zero (S := S1x256) zoff2]

/-- A last tile stores the final payload of the updated accumulator and the shift. -/
theorem out_C (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i) (x0 : Vec F S1x512x1024 .f32) (x1 : Vec F S512x256 .f32) (x2 : Vec F S1x256 .f32) (xs0 : Vec F S1x256 .f32) :
    out0_C c i arg2 harg2 arg3 harg3 arg4 harg4 arg5 harg5 arg6 harg6 hc0 hc1 x0 x1 x2 xs0 = k0_pay3 (k0_pay2 x0 xs0 x1) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero zoff3, View.readCov_unit_zero (S := S1x256) _ zoff2]
  simp only [View.readAt_eq_ld, harg2.read_unread, harg3.read_unread, harg4.read_unread, harg6.read_unread, View.ld_unit_zero (S := S1x512x1024) zoff3, View.ld_unit_zero (S := S512x256) zoff2, View.ld_unit_zero (S := S1x256) zoff2]

/-! ## Point by point -/

theorem step_A (c : Dev nD) (n : ℕ) (h : n < cfg0.N) (h0 : n % 4 = 0) :
    (outsAt0 V c n h).2 = k0_pay2 (iblk0 V c 0 ⟨n, h⟩) (k0_pay1 (F := F)) (iblk0 V c 1 ⟨n, h⟩) := by
  have h1 : ¬ n % 4 = 3 := by omega
  have e := outsAt0_A V c ⟨n, h⟩ h0 h1
  dsimp only at e
  rw [e]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk0 V c 0 ⟨n, h⟩) (iblk0 V c 1 ⟨n, h⟩) (iblk0 V c 2 ⟨n, h⟩)

theorem step_B (c : Dev nD) (n : ℕ) (h : n < cfg0.N) (h0 : ¬n % 4 = 0) (h1 : ¬n % 4 = 3) :
    (outsAt0 V c n h).2 = k0_pay2 (iblk0 V c 0 ⟨n, h⟩) (outsAt0 V c (n - 1) (Nat.lt_of_le_of_lt (Nat.sub_le _ _) h)).2 (iblk0 V c 1 ⟨n, h⟩) := by
  have e := outsAt0_B V c ⟨n, h⟩ h0 h1
  dsimp only at e
  rw [e]
  dsimp only
  exact sout_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (iblk0 V c 0 ⟨n, h⟩) (iblk0 V c 1 ⟨n, h⟩) (iblk0 V c 2 ⟨n, h⟩) (outsAt0 V c (n - 1) (Nat.lt_of_le_of_lt (Nat.sub_le _ _) h)).2

theorem step_C (c : Dev nD) (n : ℕ) (h : n < cfg0.N) (h0 : ¬n % 4 = 0) (h1 : n % 4 = 3) :
    (outsAt0 V c n h).1 = k0_pay3 (k0_pay2 (iblk0 V c 0 ⟨n, h⟩) (outsAt0 V c (n - 1) (Nat.lt_of_le_of_lt (Nat.sub_le _ _) h)).2 (iblk0 V c 1 ⟨n, h⟩)) (iblk0 V c 2 ⟨n, h⟩) := by
  have e := outsAt0_C V c ⟨n, h⟩ h0 h1
  dsimp only at e
  rw [e]
  dsimp only
  exact out_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk0 V c 0 ⟨n, h⟩) (iblk0 V c 1 ⟨n, h⟩) (iblk0 V c 2 ⟨n, h⟩) (outsAt0 V c (n - 1) (Nat.lt_of_le_of_lt (Nat.sub_le _ _) h)).2

/-- The block an image's last tile stores, over the image's four tiles: `n` is the image's last point. -/
theorem lastTile (c : Dev nD) (n : ℕ) (h : n < cfg0.N) (h3 : n % 4 = 3)
    (ha : n - 1 < cfg0.N) (hb : n - 1 - 1 < cfg0.N) (hc : n - 1 - 1 - 1 < cfg0.N) :
    (outsAt0 V c n h).1
      = k0_pay3 (k0_pay2 (iblk0 V c 0 ⟨n, h⟩)
          (k0_pay2 (iblk0 V c 0 ⟨n - 1, ha⟩)
            (k0_pay2 (iblk0 V c 0 ⟨n - 1 - 1, hb⟩)
              (k0_pay2 (iblk0 V c 0 ⟨n - 1 - 1 - 1, hc⟩) (k0_pay1 (F := F)) (iblk0 V c 1 ⟨n - 1 - 1 - 1, hc⟩))
              (iblk0 V c 1 ⟨n - 1 - 1, hb⟩))
            (iblk0 V c 1 ⟨n - 1, ha⟩))
          (iblk0 V c 1 ⟨n, h⟩)) (iblk0 V c 2 ⟨n, h⟩) := by
  rw [step_C V c n h (by omega) h3, step_B V c (n - 1) ha (by omega) (by omega),
    step_B V c (n - 1 - 1) hb (by omega) (by omega), step_A V c (n - 1 - 1 - 1) hc (by omega)]

/-! ## From blocks to the array -/

/-- The result's staging buffer after point `n`, for any `n` (a placeholder past the grid). -/
def outN (c : Dev nD) (n : ℕ) : Vec F S1x1x256 .f32 := if h : n < cfg0.N then (outsAt0 V c n h).1 else idleOut

theorem outN_eq (c : Dev nD) (n : ℕ) (h : n < cfg0.N) : outN V c n = (outsAt0 V c n h).1 := dif_pos h

/-- What the result array ends holding: at `(b, 0, o)` entry `o` of the block image `b`'s last tile stored. -/
def G0 (c : Dev nD) : S16x1x256.Idx → Elt F .f32 :=
  fun j => outN V c (4 * (j 0 : Fin 16).val + 3) (ix3 (0 : Fin 1) (0 : Fin 1) (j 2 : Fin 256))

/-- The printed index maps over the grid: point `t` is image `t / 4`, channel tile `t % 4`. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- What a last tile writes back is its image's block of `G0`. -/
theorem flushed0_eq (c : Dev nD) (t : Fin cfg0.N) (hf : (cfg0.win 3).flush t = true) :
    (dat0 V c).flushed 3 t = ((cfg0.win 3).blk t).view.read (Elt F) (G0 V c) := by
  show (cfg0.win 3).cut (grid0.coords t) ((dat0 V c).after 3 t) = _
  rw [after0_3]
  have h3 : t.val % 4 = 3 := (flush0_3 t).mp hf
  have hN : t.val < 64 := lt_of_lt_of_eq t.isLt (show cfg0.N = 64 from N_0)
  obtain ⟨-, -, -, -, -, -, -, e0, e1, e2⟩ := idx_facts0 t
  funext y
  have hy0 : (y 0).val < 1 := (y 0).isLt
  have hy1 : (y 1).val < 1 := (y 1).isLt
  have hy2 : (y 2).val < 256 := (y 2).isLt
  rw [View.read_apply]
  show (outsAt0 V c t.val t.isLt).1 (fun a => ⟨(y a).val, _⟩) = G0 V c (((cfg0.win 3).blk t).view.emb y)
  unfold G0
  have hb : 4 * ((((cfg0.win 3).blk t).view.emb y) 0 : Fin 16).val + 3 = t.val := by
    show 4 * (win0_3.index t (0 : Fin 3) * 1 + 1 * (y 0).val) + 3 = t.val
    rw [e0]; omega
  rw [hb, outN_eq V c t.val t.isLt]
  refine congrArg (outsAt0 V c t.val t.isLt).1 (funext fun a => Fin.ext ?_)
  match a with
  | ⟨0, _⟩ => show (y 0).val = 0; omega
  | ⟨1, _⟩ => show (y 1).val = 0; omega
  | ⟨2, _⟩ => show (y 2).val = win0_3.index t (2 : Fin 3) * 256 + 1 * (y 2).val; rw [e2]; omega

theorem mem_blk0 (t : Fin cfg0.N) (i : S16x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v14).slice (win0_3.rect t)).set ↔ _
  rw [View.set_slice_whole, Rect.mem_set_unit]
  exact Iff.rfl

/-- The sixteen last tiles' blocks cover the result array: `(b, 0, o)` lies in the block of point `4 b + 3`. -/
theorem cover0 (i : S16x1x256.Idx) :
    ∃ t : Fin cfg0.N, (cfg0.win 3).flush t = true ∧ i ∈ ((cfg0.win 3).blk t).view.set := by
  have hN : cfg0.N = 64 := N_0
  have h0 : (i 0).val < 16 := (i 0).isLt
  have h1 : (i 1).val < 1 := (i 1).isLt
  have h2 : (i 2).val < 256 := (i 2).isLt
  obtain ⟨t, ht⟩ : ∃ t : Fin cfg0.N, t.val = 4 * (i 0).val + 3 := ⟨⟨4 * (i 0).val + 3, by rw [hN]; omega⟩, rfl⟩
  obtain ⟨-, -, -, -, -, -, -, e0, e1, e2⟩ := idx_facts0 t
  refine ⟨t, (flush0_3 t).mpr (by rw [ht]; omega), ?_⟩
  rw [mem_blk0]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 256 ≤ (i 2).val ∧ (i 2).val < win0_3.index t (2 : Fin 3) * 256 + 256; rw [e2]; omega

/-- The result array after the region. -/
theorem final0 (c : Dev nD) : (dat0 V c).arrAt 3 cfg0.N = G0 V c :=
  (dat0 V c).arrAt_eq_of_cover 3 (G0 V c) (flushed0_eq V c) cover0

end Cert.ReferenceIdeal.Hand

end
-- ==== Proof.R0Blocks.lean ====
/-
  Region 0's input blocks at an index.  Point `t` of the grid is image `t / 4`, channel tile `t % 4`: the input
  block is channels `512 (t % 4) …` of image `t / 4`, the weight block rows `512 (t % 4) …` of the folded weights,
  the shift block the whole shift row.
-/
import proofs.«104195_g2000404444116002_pallasbulk_979_6_alg».proof.Proof.R0Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem iblk0_0_apply (c : Dev nD) (t : Fin cfg0.N) (c' : Fin 512) (s : Fin 1024) (k : S16x2048x1024.Idx)
    (hk0 : (k 0).val = t.val / 4) (hk1 : (k 1).val = t.val % 4 * 512 + c'.val) (hk2 : (k 2).val = s.val) :
    (iblk0 V c 0 t : Vec F S1x512x1024 .f32) (ix3 (0 : Fin 1) c' s) = (V c main_v13 : S16x2048x1024.Idx → Elt F .f32) k := by
  obtain ⟨e0, e1, e2, -, -, -, -, -, -, -⟩ := idx_facts0 t
  unfold iblk0
  rw [View.read_apply]
  show (V c main_v13 : S16x2048x1024.Idx → Elt F .f32) _ = (V c main_v13 : S16x2048x1024.Idx → Elt F .f32) _
  refine congrArg (V c main_v13 : S16x2048x1024.Idx → Elt F .f32) (funext fun a => Fin.ext ?_)
  match a with
  | ⟨0, _⟩ => show win0_0.index t (0 : Fin 3) * 1 + 1 * 0 = (k 0).val; rw [e0, hk0]; omega
  | ⟨1, _⟩ => show win0_0.index t (1 : Fin 3) * 512 + 1 * c'.val = (k 1).val; rw [e1, hk1]; omega
  | ⟨2, _⟩ => show win0_0.index t (2 : Fin 3) * 1024 + 1 * s.val = (k 2).val; rw [e2, hk2]; omega

theorem iblk0_1_apply (c : Dev nD) (t : Fin cfg0.N) (c' : Fin 512) (o : Fin 256) (k : S2048x256.Idx)
    (hk0 : (k 0).val = t.val % 4 * 512 + c'.val) (hk1 : (k 1).val = o.val) :
    (iblk0 V c 1 t : Vec F S512x256 .f32) (ix2 c' o) = (V c main_v12 : S2048x256.Idx → Elt F .f32) k := by
  obtain ⟨-, -, -, e0, e1, -, -, -, -, -⟩ := idx_facts0 t
  unfold iblk0
  rw [View.read_apply]
  show (V c main_v12 : S2048x256.Idx → Elt F .f32) _ = (V c main_v12 : S2048x256.Idx → Elt F .f32) _
  refine congrArg (V c main_v12 : S2048x256.Idx → Elt F .f32) (funext fun a => Fin.ext ?_)
  match a with
  | ⟨0, _⟩ => show win0_1.index t (0 : Fin 2) * 512 + 1 * c'.val = (k 0).val; rw [e0, hk0]; omega
  | ⟨1, _⟩ => show win0_1.index t (1 : Fin 2) * 256 + 1 * o.val = (k 1).val; rw [e1, hk1]; omega

theorem iblk0_2_apply (c : Dev nD) (t : Fin cfg0.N) (o : Fin 256) :
    (iblk0 V c 2 t : Vec F S1x256 .f32) (ix2 (0 : Fin 1) o) = (V c main_v6 : S1x256.Idx → Elt F .f32) (ix2 (0 : Fin 1) o) := by
  obtain ⟨-, -, -, -, -, e0, e1, -, -, -⟩ := idx_facts0 t
  unfold iblk0
  rw [View.read_apply]
  show (V c main_v6 : S1x256.Idx → Elt F .f32) _ = (V c main_v6 : S1x256.Idx → Elt F .f32) _
  refine congrArg (V c main_v6 : S1x256.Idx → Elt F .f32) (funext fun a => Fin.ext ?_)
  match a with
  | ⟨0, _⟩ => show win0_2.index t (0 : Fin 2) * 1 + 1 * 0 = 0; rw [e0]
  | ⟨1, _⟩ => show win0_2.index t (1 : Fin 2) * 256 + 1 * o.val = o.val; rw [e1]; omega

end Cert.ReferenceIdeal.Hand

end
-- ==== Proof.R0Pay.lean ====
/-
  The arithmetic of the pooling kernel's three stored values, at the extended reals, read at an index.

  The pooling kernel keeps a row of 256 running sums.  Its first value clears the row: every entry is 0.  Its second
  adds to entry `o` of the row the product of the block's channel sums with column `o` of the weight block: the lane
  sum `∑ s, x[0, c, s]` over the 1024 pixels of channel `c`, times `w[c, o]`, summed over the 512 channels of the
  block; the matrix product's zero accumulator and the lane sum's zero start contribute nothing.  Its third adds the
  shift row and takes the maximum with 0, stored under one more leading unit axis.
-/
import proofs.«104195_g2000404444116002_pallasbulk_979_6_alg».proof.Proof.Gen.ReferenceIdeal.Skeleton
import Idealize.ShloMosaic.PureOps.Ideal.Laws
import Idealize.ShloMosaic.Lib.ValueIdx
import Idealize.ShloMosaic.Lib.Pipeline.Value

noncomputable section

namespace Cert.ReferenceIdeal.Hand

open Idealize.ShloMosaic Idealize.ShloMosaic.ValueIdx
open Cert.ReferenceIdeal Cert.ReferenceIdeal.Gen

/-! ## The cleared row -/

/-- Every entry of the cleared row is 0. -/
theorem pay1_apply (o : Fin 256) : (k0_pay1 (F := Ideal)) (ix2 (0 : Fin 1) o) = (0 : EReal) := by
  unfold k0_pay1
  rw [shapeCast_self]
  exact Ideal.ofBits_zero_f32

/-! ## The lane sum -/

/-- The sum over the last axis of a 1 × 512 × 1024 block, at channel `c`: the sum over the 1024 pixels. -/
theorem laneSum_apply (x : FVec Ideal S1x512x1024 .f32) (h : S1x512x1024.Reduces [2] S1x512) (hφ : FKind.Formats .f32)
    (hacc : (0x00000000#32 : BitVec 32) = FKind.add.neutral .f32 hφ) (c' : Fin 512) :
    multiReduction .add [2] S1x512 x 0x00000000#32 h hφ hacc (ix2 (0 : Fin 1) c') = ∑ s : Fin 1024, x (ix3 (0 : Fin 1) c' s) := by
  refine (Ideal.multiReduction_add_single x _ h hφ hacc _).trans ?_
  refine Finset.sum_congr rfl fun s _ => congrArg x (funext fun a => Fin.ext ?_)
  match a with
  | ⟨0, _⟩ => rfl
  | ⟨1, _⟩ => rfl
  | ⟨2, _⟩ => rfl

/-! ## The matrix product's operand indices: rows × contraction times contraction × columns -/

theorem dot0_lhs_0 (i : S1x256.Idx) (q : dot_S1x512_S512x256_S1x256_1_0_0_1_n_n.contr.Idx) :
    (dot_S1x512_S512x256_S1x256_1_0_0_1_n_n.lhsIdx i q 0).val = (i 0).val := by
  unfold DotDims.lhsIdx
  rw [dif_neg (show ¬(0 : Fin S1x512.rank) ∈ dot_S1x512_S512x256_S1x256_1_0_0_1_n_n.lhsBatch by decide),
    dif_pos (show (0 : Fin S1x512.rank) ∈ dot_S1x512_S512x256_S1x256_1_0_0_1_n_n.lhsNonContracting by decide)]
  rfl

theorem dot0_lhs_1 (i : S1x256.Idx) (q : dot_S1x512_S512x256_S1x256_1_0_0_1_n_n.contr.Idx) :
    (dot_S1x512_S512x256_S1x256_1_0_0_1_n_n.lhsIdx i q 1).val = (q ⟨0, by decide⟩).val :=
  dot_S1x512_S512x256_S1x256_1_0_0_1_n_n.lhsIdx_val_of_single rfl i q

theorem dot0_rhs_0 (i : S1x256.Idx) (q : dot_S1x512_S512x256_S1x256_1_0_0_1_n_n.contr.Idx) :
    (dot_S1x512_S512x256_S1x256_1_0_0_1_n_n.rhsIdx i q 0).val = (q ⟨0, by decide⟩).val :=
  dot_S1x512_S512x256_S1x256_1_0_0_1_n_n.rhsIdx_val_of_single rfl i q

theorem dot0_rhs_1 (i : S1x256.Idx) (q : dot_S1x512_S512x256_S1x256_1_0_0_1_n_n.contr.Idx) :
    (dot_S1x512_S512x256_S1x256_1_0_0_1_n_n.rhsIdx i q 1).val = (i 1).val := by
  unfold DotDims.rhsIdx
  rw [dif_neg (show ¬(1 : Fin S512x256.rank) ∈ dot_S1x512_S512x256_S1x256_1_0_0_1_n_n.rhsBatch by decide),
    dif_pos (show (1 : Fin S512x256.rank) ∈ dot_S1x512_S512x256_S1x256_1_0_0_1_n_n.rhsNonContracting by decide)]
  rfl

/-- The product of a row vector with the weight block into the zero accumulator, at column `o`: the sum over the 512
    channels of the row's entry times the weight. -/
theorem dot0_apply (l : FVec Ideal S1x512 .f32) (r : FVec Ideal S512x256 .f32) (o : Fin 256) :
    matmul dot_S1x512_S512x256_S1x256_1_0_0_1_n_n none l r (constant S1x256 .f32 0x00000000#32) (ix2 (0 : Fin 1) o)
      = ∑ c' : Fin 512, l (ix2 (0 : Fin 1) c') * r (ix2 c' o) := by
  simp only [matmul]
  rw [Ideal.matmul_constant_zero_apply, ← Equiv.sum_comp (contrEquiv1 dot_S1x512_S512x256_S1x256_1_0_0_1_n_n 512 rfl rfl).symm]
  refine Finset.sum_congr rfl fun k _ => ?_
  have hk := contrEquiv1_symm_val dot_S1x512_S512x256_S1x256_1_0_0_1_n_n 512 rfl rfl k
  have el : dot_S1x512_S512x256_S1x256_1_0_0_1_n_n.lhsIdx (ix2 (0 : Fin 1) o) ((contrEquiv1 dot_S1x512_S512x256_S1x256_1_0_0_1_n_n 512 rfl rfl).symm k)
      = ix2 (0 : Fin 1) k := funext fun a => Fin.ext (by
    match a with
    | ⟨0, _⟩ => exact dot0_lhs_0 _ _
    | ⟨1, _⟩ => exact (dot0_lhs_1 _ _).trans hk)
  have er : dot_S1x512_S512x256_S1x256_1_0_0_1_n_n.rhsIdx (ix2 (0 : Fin 1) o) ((contrEquiv1 dot_S1x512_S512x256_S1x256_1_0_0_1_n_n 512 rfl rfl).symm k)
      = ix2 k o := funext fun a => Fin.ext (by
    match a with
    | ⟨0, _⟩ => exact (dot0_rhs_0 _ _).trans hk
    | ⟨1, _⟩ => exact dot0_rhs_1 _ _)
  rw [el, er]

/-! ## The accumulating value -/

/-- Entry `o` of the row after one block: what it held plus the block's channel sums against column `o` of the weights. -/
theorem pay2_apply (x0 : Vec Ideal S1x512x1024 .f32) (a : Vec Ideal S1x256 .f32) (x1 : Vec Ideal S512x256 .f32) (o : Fin 256) :
    k0_pay2 x0 a x1 (ix2 (0 : Fin 1) o)
      = a (ix2 (0 : Fin 1) o) + ∑ c' : Fin 512, (∑ s : Fin 1024, x0 (ix3 (0 : Fin 1) c' s)) * x1 (ix2 c' o) := by
  unfold k0_pay2
  rw [shapeCast_self, shapeCast_self, shapeCast_self]
  refine (addf_apply _ _ _).trans (congrArg (a (ix2 (0 : Fin 1) o) + ·) ?_)
  refine (dot0_apply _ _ o).trans (Finset.sum_congr rfl fun c' _ => congrArg (· * x1 (ix2 c' o)) ?_)
  exact laneSum_apply x0 _ _ _ c'

/-! ## The finished value -/

/-- Entry `o` of the finished row: the running sum plus the shift, or 0 if that is negative. -/
theorem pay3_apply (a sh : Vec Ideal S1x256 .f32) (o : Fin 256) :
    k0_pay3 a sh (ix3 (0 : Fin 1) (0 : Fin 1) o) = max (a (ix2 (0 : Fin 1) o) + sh (ix2 (0 : Fin 1) o)) (0 : EReal) := by
  unfold k0_pay3
  rw [shapeCast_self]
  refine (shapeCast_addUnit_apply ![1, 256] _ _ (ix3 (0 : Fin 1) (0 : Fin 1) o)).trans ?_
  have e : (fun a : Fin 2 => (ix3 (0 : Fin 1) (0 : Fin 1) o) a.succ) = ix2 (0 : Fin 1) o :=
    funext fun a => by match a with | ⟨0, _⟩ => rfl | ⟨1, _⟩ => rfl
  rw [e]
  refine (maximumf_apply _ _ _).trans ?_
  exact congrArg (max (a (ix2 (0 : Fin 1) o) + sh (ix2 (0 : Fin 1) o))) Ideal.ofBits_zero_f32

end Cert.ReferenceIdeal.Hand

end
-- ==== Proof.R0Math.lean ====
/-
  The closed form of the pooling region's result, at the extended reals.

  Image `b` is visited at the four grid points `4 b … 4 b + 3`, one per tile of 512 channels.  The running row starts
  at 0 and each tile adds, at column `o`, the sum over its 512 channels of the channel's pixel sum times the folded
  weight; the last tile adds the shift and takes the maximum with 0.  The four tile sums are the four blocks of the sum
  over all 2048 channels (channel `512 k + c'` is offset `c'` of tile `k`), so entry `(b, 0, o)` of the result is
    max ((∑ cc, (∑ s, x[b, cc, s]) * w[cc, o]) + shift[o]) 0.
  Only associativity of the sum is used: nothing here needs the inputs to be finite.
-/
import proofs.«104195_g2000404444116002_pallasbulk_979_6_alg».proof.Proof.R0Blocks
import proofs.«104195_g2000404444116002_pallasbulk_979_6_alg».proof.Proof.R0Pay
import proofs.«104195_g2000404444116002_pallasbulk_979_6_alg».proof.Proof.SumIndex

set_option maxRecDepth 16384

noncomputable section

namespace Cert.ReferenceIdeal.Hand

open Idealize.ShloMosaic Idealize.ShloMosaic.TcCoe Idealize.SL.Sem
open Idealize.ShloMosaic.ValueIdx
open Cert.ReferenceIdeal Cert.ReferenceIdeal.Gen

/-- One tile's contribution at column `o`: the channel pixel sums of the block against column `o` of the weight block. -/
def tileSum (X : Vec Ideal S1x512x1024 .f32) (W : Vec Ideal S512x256 .f32) (o : Fin 256) : EReal :=
  ∑ c' : Fin 512, (∑ s : Fin 1024, X (ix3 (0 : Fin 1) c' s)) * W (ix2 c' o)

/-- The stored block after four tiles, at column `o`: the four contributions added in the grid's order, the shift
    added, and the maximum with 0 taken. -/
theorem fourTiles (X0 X1 X2 X3 : Vec Ideal S1x512x1024 .f32) (W0 W1 W2 W3 : Vec Ideal S512x256 .f32)
    (SH : Vec Ideal S1x256 .f32) (o : Fin 256) :
    k0_pay3 (k0_pay2 X3 (k0_pay2 X2 (k0_pay2 X1 (k0_pay2 X0 (k0_pay1 (F := Ideal)) W0) W1) W2) W3) SH (ix3 (0 : Fin 1) (0 : Fin 1) o)
      = max ((tileSum X0 W0 o + tileSum X1 W1 o + tileSum X2 W2 o + tileSum X3 W3 o) + SH (ix2 (0 : Fin 1) o)) (0 : EReal) := by
  rw [pay3_apply, pay2_apply, pay2_apply, pay2_apply, pay2_apply, pay1_apply, zero_add]
  rfl

variable (V : (c : Dev nD) → (b : Ref sig .tc) → Buf (Elt Ideal) ((c : Thread nD τ).loc b))

/-- The three arrays the region reads, as the region finds them, as functions into the extended reals: the
    flattened images, the folded and transposed weights, the shift row. -/
abbrev inX (c : Dev nD) : S16x2048x1024.Idx → EReal := V c main_v13
abbrev inW (c : Dev nD) : S2048x256.Idx → EReal := V c main_v12
abbrev inS (c : Dev nD) : S1x256.Idx → EReal := V c main_v6

/-- Channel `cc`'s term of the result at `(b, o)`: its pixel sum times the folded weight. -/
def chanTerm (c : Dev nD) (b : Fin 16) (o : Fin 256) (cc : Fin 2048) : EReal :=
  (∑ s : Fin 1024, inX V c (ix3 b cc s)) * inW V c (ix2 cc o)

/-- At a point of image `b` and tile `j`, the tile's contribution is the sum of the channel terms of channels
    `512 j … 512 j + 511`. -/
theorem tileSum_eq (c : Dev nD) (t : Fin cfg0.N) (b : Fin 16) (j : Fin 4) (o : Fin 256)
    (hb : t.val / 4 = b.val) (hj : t.val % 4 = j.val) :
    tileSum (iblk0 V c 0 t : Vec Ideal S1x512x1024 .f32) (iblk0 V c 1 t : Vec Ideal S512x256 .f32) o
      = ∑ c' : Fin 512, chanTerm V c b o ⟨j.val * 512 + c'.val, by omega⟩ := by
  unfold tileSum chanTerm
  refine Finset.sum_congr rfl fun c' _ => ?_
  have hcc : j.val * 512 + c'.val < 2048 := by omega
  refine congrArg₂ (fun x y : EReal => x * y) (Finset.sum_congr rfl fun s _ => ?_) ?_
  · exact iblk0_0_apply V c t c' s (ix3 b (⟨j.val * 512 + c'.val, hcc⟩ : Fin 2048) s)
      (by show b.val = t.val / 4; exact hb.symm)
      (by show j.val * 512 + c'.val = t.val % 4 * 512 + c'.val; rw [hj]) rfl
  · exact iblk0_1_apply V c t c' o (ix2 (⟨j.val * 512 + c'.val, hcc⟩ : Fin 2048) o)
      (by show j.val * 512 + c'.val = t.val % 4 * 512 + c'.val; rw [hj]) rfl

/-- THE RESULT of the pooling region at `(b, 0, o)`: the sum over all channels of the pixel sum times the folded
    weight, plus the shift, or 0 if that is negative. -/
theorem G0_apply (c : Dev nD) (b : Fin 16) (o : Fin 256) :
    G0 V c (ix3 b (0 : Fin 1) o)
      = max ((∑ cc : Fin 2048, (∑ s : Fin 1024, inX V c (ix3 b cc s)) * inW V c (ix2 cc o)) + inS V c (ix2 (0 : Fin 1) o)) 0 := by
  have hN : cfg0.N = 64 := N_0
  have hb : b.val < 16 := b.isLt
  have h3 : 4 * b.val + 3 < cfg0.N := by rw [hN]; omega
  have h2 : 4 * b.val + 3 - 1 < cfg0.N := by rw [hN]; omega
  have h1 : 4 * b.val + 3 - 1 - 1 < cfg0.N := by rw [hN]; omega
  have h0 : 4 * b.val + 3 - 1 - 1 - 1 < cfg0.N := by rw [hN]; omega
  show outN V c (4 * b.val + 3) (ix3 (0 : Fin 1) (0 : Fin 1) o) = _
  rw [outN_eq V c _ h3, lastTile V c (4 * b.val + 3) h3 (by omega) h2 h1 h0]
  refine (fourTiles (iblk0 V c 0 ⟨4 * b.val + 3 - 1 - 1 - 1, h0⟩) (iblk0 V c 0 ⟨4 * b.val + 3 - 1 - 1, h1⟩) (iblk0 V c 0 ⟨4 * b.val + 3 - 1, h2⟩) (iblk0 V c 0 ⟨4 * b.val + 3, h3⟩)
    (iblk0 V c 1 ⟨4 * b.val + 3 - 1 - 1 - 1, h0⟩) (iblk0 V c 1 ⟨4 * b.val + 3 - 1 - 1, h1⟩) (iblk0 V c 1 ⟨4 * b.val + 3 - 1, h2⟩) (iblk0 V c 1 ⟨4 * b.val + 3, h3⟩)
    (iblk0 V c 2 ⟨4 * b.val + 3, h3⟩) o).trans ?_
  refine congrArg (fun z => max z (0 : EReal)) ?_
  refine congrArg₂ (· + ·) ?_ (iblk0_2_apply V c ⟨4 * b.val + 3, h3⟩ o)
  rw [tileSum_eq V c ⟨4 * b.val + 3 - 1 - 1 - 1, h0⟩ b 0 o (by show (4 * b.val + 3 - 1 - 1 - 1) / 4 = b.val; omega) (by show (4 * b.val + 3 - 1 - 1 - 1) % 4 = 0; omega),
    tileSum_eq V c ⟨4 * b.val + 3 - 1 - 1, h1⟩ b 1 o (by show (4 * b.val + 3 - 1 - 1) / 4 = b.val; omega) (by show (4 * b.val + 3 - 1 - 1) % 4 = 1; omega),
    tileSum_eq V c ⟨4 * b.val + 3 - 1, h2⟩ b 2 o (by show (4 * b.val + 3 - 1) / 4 = b.val; omega) (by show (4 * b.val + 3 - 1) % 4 = 2; omega),
    tileSum_eq V c ⟨4 * b.val + 3, h3⟩ b 3 o (by show (4 * b.val + 3) / 4 = b.val; omega) (by show (4 * b.val + 3) % 4 = 3; omega)]
  exact ((Cert.Spec.sum_tiles (chanTerm V c b o)).trans (Fin.sum_univ_four _)).symm

end Cert.ReferenceIdeal.Hand

end
-- ==== Proof.RefHost.lean ====
/-
  The reference's host operations, read one entry at a time, from any contents of the buffers they start from.

  Before its first kernel the reference prepares three arrays: the input with its 32 × 32 pixels flattened to 1024
  (entry `(b, c, s)` is the input's `(b, c, s / 32, s % 32)`), the weights scaled, averaged and transposed (entry
  `(c, o)` is `(W[o, c] · σ o) · 2⁻¹⁰` with `σ o = γ o / sqrt (v o + ε)`), and the shift as a one-row matrix (entry
  `(0, o)` is `β o - μ o · σ o`). Between and after the kernels it only changes shapes: `[16, 1, 256]` to
  `[16, 256, 1]` (entry `(b, o, 0)` is entry `(b, 0, o)`) and `[16, 256, 1024]` to `[16, 256, 32, 32]` (entry
  `(b, o, h, w)` is entry `(b, o, 32 h + w)`). A change of shape keeps the row-major position; a broadcast reads the
  operand at the coordinates it keeps; a transpose swaps the two coordinates.
-/
import proofs.«104195_g2000404444116002_pallasbulk_979_6_alg».proof.Proof.Gen.ReferenceIdeal.Launch
import proofs.«104195_g2000404444116002_pallasbulk_979_6_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.ReferenceIdeal.Hand

open Cert.ReferenceIdeal Cert.ReferenceIdeal.Gen
open Idealize.ShloMosaic Idealize.ShloMosaic.ValueIdx Idealize.ShloMosaic.StableHlo Cert.Spec

variable (W : Valuation τ sig (Elt Ideal))

/-- The flattened input: pixel `s` of channel `c` of image `b` is the input at row `s / 32`, column `s % 32`. -/
theorem host_v13 (b : Fin 16) (c : Fin 2048) (s : Fin 1024) :
    StableHlo.after (hostOps0 (F := Ideal)) W (Proc.devRef .tc main_v13) (ix3 b c s)
      = W (Proc.devRef .tc main_arg0) (ix4 b c (pixRow s) (pixCol s)) := by
  after_results
  show shapeCast S16x2048x1024 (W (Proc.devRef .tc main_arg0)) shapeCasts_S16x2048x32x32_S16x2048x1024 (ix3 b c s) = _
  refine shapeCast_apply _ _ _ _ ?_
  show (S16x2048x32x32.rowMajor (ix4 b c (pixRow s) (pixCol s))).val = (S16x2048x1024.rowMajor (ix3 b c s)).val
  rw [Shape.rowMajor_val_four, Shape.rowMajor_val_three]
  show ((b.val * 2048 + c.val) * 32 + s.val / 32) * 32 + s.val % 32 = (b.val * 2048 + c.val) * 1024 + s.val
  omega

/-- The prepared weights: entry `(c, o)` is the weight `W[o, c]`, times the reference's batch-norm scale of channel
    `o`, times the mean factor. -/
theorem host_v12 (c : Fin 2048) (o : Fin 256) :
    StableHlo.after (hostOps0 (F := Ideal)) W (Proc.devRef .tc main_v12) (ix2 c o)
      = HMul.hMul (α := EReal)
          (HMul.hMul (α := EReal) (W (Proc.devRef .tc main_arg1) (ix2 o c))
            (scaleR (W (Proc.devRef .tc main_arg2)) (W (Proc.devRef .tc main_arg5)) o)) invHW := by
  after_results
  refine (transpose_ix2_apply _ transposes_S256x2048_S2048x256_1_0 c o).trans ?_
  rw [mulf_apply, mulf_apply]
  refine congrArg₂ (· * ·) (congrArg₂ (· * ·) rfl ?_) rfl
  refine (broadcastInDim_apply _ _ _ (ix2 o c) (ix2 o (0 : Fin 1))
    (fun a => match a with | ⟨0, _⟩ => rfl | ⟨1, _⟩ => rfl)).trans ?_
  refine (broadcastInDim_apply _ _ _ (ix2 o (0 : Fin 1)) (ix1 o) (fun a => match a with | ⟨0, _⟩ => rfl)).trans ?_
  rfl

/-- The prepared shift, a one-row matrix: entry `(0, o)` is `β o - μ o · σ o`. -/
theorem host_v6 (o : Fin 256) :
    StableHlo.after (hostOps0 (F := Ideal)) W (Proc.devRef .tc main_v6) (ix2 (0 : Fin 1) o)
      = HSub.hSub (α := EReal) (W (Proc.devRef .tc main_arg3) (ix1 o))
          (HMul.hMul (α := EReal) (W (Proc.devRef .tc main_arg4) (ix1 o))
            (scaleR (W (Proc.devRef .tc main_arg2)) (W (Proc.devRef .tc main_arg5)) o)) := by
  after_results
  show shapeCast S1x256 _ shapeCasts_S256_S1x256 (ix2 (0 : Fin 1) o) = _
  refine (shapeCast_a_1a_apply _ _ (0 : Fin 1) o).trans ?_
  rfl

/-- Between the kernels, `[16, 1, 256]` read as `[16, 256, 1]`: entry `(b, o, 0)` is entry `(b, 0, o)`. -/
theorem host_v15 (b : Fin 16) (o : Fin 256) :
    StableHlo.after (hostOps1 (F := Ideal)) W (Proc.devRef .tc main_v15) (ix3 b o (0 : Fin 1))
      = W (Proc.devRef .tc main_v14) (ix3 b (0 : Fin 1) o) := by
  after_results
  show shapeCast S16x256x1 (W (Proc.devRef .tc main_v14)) shapeCasts_S16x1x256_S16x256x1 (ix3 b o (0 : Fin 1)) = _
  refine shapeCast_apply _ _ _ _ ?_
  show (S16x1x256.rowMajor (ix3 b (0 : Fin 1) o)).val = (S16x256x1.rowMajor (ix3 b o (0 : Fin 1))).val
  rw [Shape.rowMajor_val_three, Shape.rowMajor_val_three]
  show (b.val * 1 + 0) * 256 + o.val = (b.val * 256 + o.val) * 1 + 0
  omega

/-- After the kernels, `[16, 256, 1024]` read as `[16, 256, 32, 32]`: entry `(b, o, h, w)` is entry `(b, o, 32 h + w)`. -/
theorem host_v17 (b : Fin 16) (o : Fin 256) (h w : Fin 32) :
    StableHlo.after (hostOps2 (F := Ideal)) W (Proc.devRef .tc main_v17) (ix4 b o h w)
      = W (Proc.devRef .tc main_v16) (ix3 b o ⟨h.val * 32 + w.val, by omega⟩) := by
  after_results
  show shapeCast S16x256x32x32 (W (Proc.devRef .tc main_v16)) shapeCasts_S16x256x1024_S16x256x32x32 (ix4 b o h w) = _
  refine shapeCast_apply _ _ _ _ ?_
  show (S16x256x1024.rowMajor (ix3 b o (⟨h.val * 32 + w.val, by omega⟩ : Fin 1024))).val
      = (S16x256x32x32.rowMajor (ix4 b o h w)).val
  rw [Shape.rowMajor_val_three, Shape.rowMajor_val_four]
  show (b.val * 256 + o.val) * 1024 + (h.val * 32 + w.val) = ((b.val * 256 + o.val) * 32 + h.val) * 32 + w.val
  omega

end Cert.ReferenceIdeal.Hand

end
-- ==== Proof.RefValue.lean ====
/-
  The reference's result as a function of its arguments.  Read backwards through @main: the last reshape reads the
  broadcast region's array, which holds at every pixel the column array's entry; that is the reshaped result of the
  pooling region, which holds per image and output channel max (∑ over input channels of (spatial sum) × (folded
  weight) + shift, 0); the folded weights, the shift and the flattened input are the first host stretch's values of
  the arguments.  Together: the reference form `outR` of the specification.
-/
import proofs.«104195_g2000404444116002_pallasbulk_979_6_alg».proof.Proof.RefRun
import proofs.«104195_g2000404444116002_pallasbulk_979_6_alg».proof.Proof.RefRegion1Value
import proofs.«104195_g2000404444116002_pallasbulk_979_6_alg».proof.Proof.R0Math
import proofs.«104195_g2000404444116002_pallasbulk_979_6_alg».proof.Proof.RefHost
import proofs.«104195_g2000404444116002_pallasbulk_979_6_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

/-- The reference's result buffer ends holding the specification's reference form of the launch arguments. -/
theorem W5_main_v17 (c : Dev nD) :
    (W5 (F := Ideal) m ρ c (Proc.devRef .tc main_v17) : S16x256x32x32.Idx → EReal)
      = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  obtain ⟨b, o, h, w, rfl⟩ : ∃ (b : Fin 16) (o : Fin 256) (h w : Fin 32), j = ix4 b o h w := ⟨j 0, j 1, j 2, j 3, eq_ix4 j⟩
  show StableHlo.after (hostOps2 (F := Ideal)) (W4 m ρ c) (Proc.devRef .tc main_v17) (ix4 b o h w) = _
  rw [host_v17 (W4 m ρ c) b o h w]
  have e1 : W4 m ρ c (Proc.devRef .tc main_v16) = (dat1 (V3 m ρ) c).arrAt 1 cfg1.N := W4_arr m ρ c 1
  rw [e1, final1_apply (V3 m ρ) c b o _]
  show StableHlo.after (hostOps1 (F := Ideal)) (W2 m ρ c) (Proc.devRef .tc main_v15) (ix3 b o (0 : Fin 1)) = _
  rw [host_v15 (W2 m ρ c) b o]
  have e2 : W2 m ρ c (Proc.devRef .tc main_v14) = (dat0 (V1 m ρ) c).arrAt 3 cfg0.N := W2_arr m ρ c 3
  rw [e2, final0 (V1 m ρ) c, G0_apply (V1 m ρ) c b o]
  simp only [inX, inW, inS, V1, W1, host_v13 (W0 m ρ c), host_v12 (W0 m ρ c), host_v6 (W0 m ρ c)]
  rfl

end Cert.ReferenceIdeal.Hand

end
-- ==== Proof.SpecLaw.lean ====
/-
  The law that joins the two arrangements of the pooled, normalised, rectified projection.

  On inputs that are real numbers, with a variance that is not negative, `v + ε` is a positive real, so
  `rsqrt (v + ε)` and `1 / sqrt (v + ε)` are the same real and the two batch-norm scales agree: `σK = σR = σ`.
  Every pooled activation `a c` and every weight `w c` is then a real, and
    (∑ c, a c * w c) * (σ * 2⁻¹⁰) = ∑ c, a c * ((w c * σ) * 2⁻¹⁰)
  is distributivity of a real factor over a finite sum. The shift `β - μ * σ` and the rectification are the same
  term on both sides.
-/
import proofs.«104195_g2000404444116002_pallasbulk_979_6_alg».proof.Proof.Spec

noncomputable section

namespace Cert.Spec

open Idealize.ShloMosaic Idealize.ShloMosaic.ValueIdx
open scoped BigOperators

/-- An extended real that is neither infinity is a real number. -/
theorem Fin'.exists_real {x : EReal} (h : Fin' x) : ∃ r : ℝ, x = (r : EReal) :=
  ⟨x.toReal, (EReal.coe_toReal h.1 h.2).symm⟩

/-- A real number, read as an extended real, is neither infinity. -/
theorem fin'_coe (r : ℝ) : Fin' (r : EReal) := ⟨EReal.coe_ne_top r, EReal.coe_ne_bot r⟩

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance guard is a positive real number (10995116 · 2⁻⁴⁰, about 10⁻⁵). -/
theorem eps_real : ∃ e : ℝ, 0 < e ∧ eps = (e : EReal) := by
  refine ⟨(10995116 : ℝ) * (2 : ℝ) ^ (-40 : ℤ), by positivity, ?_⟩
  simp [eps, Ideal.ofBits, Ideal.ieee, -EReal.coe_mul] <;> norm_num

/-- The mean factor is a real number (2⁻¹⁰). -/
theorem invHW_real : ∃ k : ℝ, invHW = (k : EReal) := by
  refine ⟨(2 : ℝ) ^ (-10 : ℤ), ?_⟩
  simp [invHW, Ideal.ofBits, Ideal.ieee, -EReal.coe_mul] <;> norm_num

/-- With a real `γ` and a real variance that is not negative, the two batch-norm scales are one real number:
    `v + ε > 0`, so the reciprocal square root and the quotient by the square root are both `γ · (√(v + ε))⁻¹`. -/
theorem scale_real (γ v : SC.Idx → EReal) (hγ : ∀ j, Fin' (γ j)) (hv : ∀ j, Fin' (v j)) (hv0 : ∀ j, 0 ≤ v j)
    (o : Fin 256) : ∃ s : ℝ, scaleK γ v o = (s : EReal) ∧ scaleR γ v o = (s : EReal) := by
  obtain ⟨e, he0, he⟩ := eps_real
  obtain ⟨g, hg⟩ := (hγ (ix1 o)).exists_real
  obtain ⟨r, hr⟩ := (hv (ix1 o)).exists_real
  have hr0 : 0 ≤ r := by
    have := hv0 (ix1 o)
    rw [hr] at this
    exact EReal.coe_nonneg.mp this
  have hpos : 0 < r + e := by linarith
  have hsq : Real.sqrt (r + e) ≠ 0 := (Real.sqrt_pos.mpr hpos).ne'
  refine ⟨g * (Real.sqrt (r + e))⁻¹, ?_, ?_⟩
  · unfold scaleK
    rw [hg, hr, he, ← EReal.coe_add, Ideal.rsqrt_coe, if_neg (not_lt.mpr hpos.le), if_neg hpos.ne', ← EReal.coe_mul]
  · unfold scaleR
    rw [hg, hr, he, ← EReal.coe_add, Ideal.sqrt_coe, if_neg (not_lt.mpr hpos.le), Ideal.div_coe hsq, one_div,
      ← EReal.coe_mul]

/-- The pooled activation of a channel of real entries is a real number. -/
theorem chanSum_real (X : SX.Idx → EReal) (hX : ∀ j, Fin' (X j)) (b : Fin 16) (c : Fin 2048) :
    ∃ a : ℝ, chanSum X b c = (a : EReal) := by
  have h : ∀ j, ∃ r : ℝ, X j = (r : EReal) := fun j => (hX j).exists_real
  choose x hx using h
  refine ⟨∑ s : Fin 1024, x (ix4 b c (pixRow s) (pixCol s)), ?_⟩
  unfold chanSum
  rw [coe_sum]
  exact Finset.sum_congr rfl fun s _ => hx _

/-- The kernel's value (product first, scale after) is the reference's (scale folded into the weights), on real
    inputs with a variance that is not negative. -/
theorem yK_eq_yR (X : SX.Idx → EReal) (W : SW.Idx → EReal) (γ β μ v : SC.Idx → EReal)
    (hX : ∀ j, Fin' (X j)) (hW : ∀ j, Fin' (W j)) (hγ : ∀ j, Fin' (γ j)) (hβ : ∀ j, Fin' (β j))
    (hμ : ∀ j, Fin' (μ j)) (hv : ∀ j, Fin' (v j)) (hv0 : ∀ j, 0 ≤ v j) (b : Fin 16) (o : Fin 256) :
    yK X W γ β μ v b o = yR X W γ β μ v b o := by
  obtain ⟨s, hsK, hsR⟩ := scale_real γ v hγ hv hv0 o
  obtain ⟨k, hk⟩ := invHW_real
  have ha : ∀ c, ∃ a : ℝ, chanSum X b c = (a : EReal) := fun c => chanSum_real X hX b c
  choose a ha using ha
  have hw : ∀ c : Fin 2048, ∃ w : ℝ, W (ix2 o c) = (w : EReal) := fun c => (hW _).exists_real
  choose w hw using hw
  unfold yK yR
  rw [hsK, hsR, hk]
  have hsum : (∑ c : Fin 2048, chanSum X b c * W (ix2 o c)) * ((s : EReal) * (k : EReal))
      = ∑ c : Fin 2048, chanSum X b c * ((W (ix2 o c) * (s : EReal)) * (k : EReal)) := by
    have hl : (∑ c : Fin 2048, chanSum X b c * W (ix2 o c)) = ((∑ c : Fin 2048, a c * w c : ℝ) : EReal) := by
      rw [coe_sum]
      exact Finset.sum_congr rfl fun c _ => by rw [ha c, hw c, EReal.coe_mul]
    have hr : (∑ c : Fin 2048, chanSum X b c * ((W (ix2 o c) * (s : EReal)) * (k : EReal)))
        = ((∑ c : Fin 2048, a c * ((w c * s) * k) : ℝ) : EReal) := by
      rw [coe_sum]
      exact Finset.sum_congr rfl fun c _ => by rw [ha c, hw c, EReal.coe_mul, EReal.coe_mul, EReal.coe_mul]
    rw [hl, hr, ← EReal.coe_mul, ← EReal.coe_mul, Finset.sum_mul]
    exact congrArg _ (Finset.sum_congr rfl fun c _ => by ring)
  rw [hsum]

/-- The two result arrays are equal: the per-channel values are, at every pixel. -/
theorem outK_eq_outR (X : SX.Idx → EReal) (W : SW.Idx → EReal) (γ β μ v : SC.Idx → EReal)
    (hX : ∀ j, Fin' (X j)) (hW : ∀ j, Fin' (W j)) (hγ : ∀ j, Fin' (γ j)) (hβ : ∀ j, Fin' (β j))
    (hμ : ∀ j, Fin' (μ j)) (hv : ∀ j, Fin' (v j)) (hv0 : ∀ j, 0 ≤ v j) :
    outK X W γ β μ v = outR X W γ β μ v :=
  funext fun j => yK_eq_yR X W γ β μ v hX hW hγ hβ hμ hv hv0 (j 0) (j 1)

end Cert.Spec

end
-- ==== Proof.PreFacts.lean ====
/-
  What the precondition says, entry by entry.

  The printed predicate is a conjunction of seven `all`s: for each of the six arrays, `|x| < +∞` at every entry, and
  for the variance `x ≥ 0` at every entry. A conjunction of one-bit words that is 1 has every conjunct 1; an `all`
  (a reduction by `and` over every axis) that is 1 has a 1 at every entry; and at the extended reals
  `max x (-x) < ⊤` says that `x` is neither infinity, `0 ≤ x` is the order's own statement.
-/
import proofs.«104195_g2000404444116002_pallasbulk_979_6_alg».proof.Pre_finite_inputs
import proofs.«104195_g2000404444116002_pallasbulk_979_6_alg».proof.Proof.Spec
import Idealize.ShloMosaic.Lib.ReduceAll
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A decided proposition's word is 1 exactly when the proposition holds. -/
theorem ofBool_decide_eq_one (p : Prop) [Decidable p] : BitVec.ofBool (decide p) = 1#1 ↔ p := by
  by_cases hp : p <;> simp [hp]

/-- `|x| < +∞`, as the comparison's word, says that `x` is a real number: `x < ⊤` excludes `⊤`, and
    `-x < ⊤` excludes `⊥`. -/
theorem fin'_of_abs_lt (x : EReal)
    (h : Ideal.cmp .olt (max x (-x)) (Ideal.ofBits .f32 0x7F800000#32) = 1#1) : Cert.Spec.Fin' x := by
  have htop : Ideal.ofBits .f32 0x7F800000#32 = ⊤ := by simp [Ideal.ofBits, Ideal.ieee]
  rw [htop] at h
  have hlt : max x (-x) < ⊤ := (ofBool_decide_eq_one _).mp h
  obtain ⟨h1, h2⟩ := max_lt_iff.mp hlt
  exact ⟨h1.ne, fun hb => by rw [hb, EReal.neg_bot] at h2; exact lt_irrefl _ h2⟩

/-- `x ≥ 0`, as the comparison's word against the zero word, is `0 ≤ x`. -/
theorem nonneg_of_ge (x : EReal) (h : Ideal.cmp .oge x (Ideal.ofBits .f32 0x00000000#32) = 1#1) : 0 ≤ x := by
  rw [Ideal.ofBits_zero_f32] at h
  exact (ofBool_decide_eq_one _).mp h

/-- The precondition, decoded: every entry of every array is a real number, and no variance is negative. -/
theorem of_fn [Cert.Pre_finite_inputs.Facts] (a0 : FVec Ideal S16x2048x32x32 .f32) (a1 : FVec Ideal S256x2048 .f32)
    (a2 a3 a4 a5 : FVec Ideal S256 .f32)
    (h : Cert.Pre_finite_inputs.fn (F := Ideal) a0 a1 a2 a3 a4 a5 = fun _ => 1#1) :
    (∀ j, Cert.Spec.Fin' (a0 j)) ∧ (∀ j, Cert.Spec.Fin' (a1 j)) ∧ (∀ j, Cert.Spec.Fin' (a2 j))
      ∧ (∀ j, Cert.Spec.Fin' (a3 j)) ∧ (∀ j, Cert.Spec.Fin' (a4 j)) ∧ (∀ j, Cert.Spec.Fin' (a5 j))
      ∧ (∀ j, 0 ≤ a5 j) := by
  have e := congrFun h ix0
  dsimp only [Cert.Pre_finite_inputs.fn, Cert.Pre_finite_inputs.fn_part1] at e
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨h1, h2⟩ := IntOp.andi_eq_one.mp e
  exact ⟨fun j => fin'_of_abs_lt _ (Host.reduce_andi_all _ _ _ _ ix0 h1 j),
    fun j => fin'_of_abs_lt _ (Host.reduce_andi_all _ _ _ _ ix0 h2 j),
    fun j => fin'_of_abs_lt _ (Host.reduce_andi_all _ _ _ _ ix0 h3 j),
    fun j => fin'_of_abs_lt _ (Host.reduce_andi_all _ _ _ _ ix0 h4 j),
    fun j => fin'_of_abs_lt _ (Host.reduce_andi_all _ _ _ _ ix0 h5 j),
    fun j => fin'_of_abs_lt _ (Host.reduce_andi_all _ _ _ _ ix0 h6 j),
    fun j => nonneg_of_ge _ (Host.reduce_andi_all _ _ _ _ ix0 h7 j)⟩

end Cert.PreFacts

end
-- ==== Proof.lean ====
/-
  The certificate of the pooled-projection kernel against its reference.

  Both programs map an image batch x[16, 2048, 32, 32], a 1×1 projection W[256, 2048] and batch-norm parameters
  γ, β, μ, v[256] to the ReLU of the batch-normed projection of the spatial sum, broadcast over the 32 × 32 pixels.
  The kernel multiplies the projected sum by the scale γ · rsqrt (v + ε) · 2⁻¹⁰ afterwards; the reference folds
  (γ / sqrt (v + ε)) · 2⁻¹⁰ into the weights first.  On finite inputs with v ≥ 0 the two scales are one real number and
  the factor moves across the finite sum (Proof/SpecLaw.lean); outside that domain the reference's square root and
  quotient leave the reals, which is why the precondition carries v ≥ 0.

  The kernel's run and value: Proof/KRun.lean over the generated frame.  The reference is itself two kernel
  regions among host operations; its run is Proof/RefRun.lean (the regions' halves in Proof/R0*.lean and
  Proof/RefRegion1*.lean) and its value Proof/RefValue.lean.  The precondition is decoded in Proof/PreFacts.lean.
-/
import proofs.«104195_g2000404444116002_pallasbulk_979_6_alg».proof.Defs
import proofs.«104195_g2000404444116002_pallasbulk_979_6_alg».proof.Proof.Gen.Kernel
import proofs.«104195_g2000404444116002_pallasbulk_979_6_alg».proof.Proof.Gen.Kernel.Frame
import proofs.«104195_g2000404444116002_pallasbulk_979_6_alg».proof.Proof.Gen.KernelIdeal
import proofs.«104195_g2000404444116002_pallasbulk_979_6_alg».proof.Proof.Gen.KernelIdeal.Frame
import proofs.«104195_g2000404444116002_pallasbulk_979_6_alg».proof.Proof.Gen.ReferenceIdeal
import proofs.«104195_g2000404444116002_pallasbulk_979_6_alg».proof.Proof.Gen.Pre_finite_inputs
import proofs.«104195_g2000404444116002_pallasbulk_979_6_alg».proof.Proof.KRun
import proofs.«104195_g2000404444116002_pallasbulk_979_6_alg».proof.Proof.RefValue
import proofs.«104195_g2000404444116002_pallasbulk_979_6_alg».proof.Proof.SpecLaw
import proofs.«104195_g2000404444116002_pallasbulk_979_6_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

section Reference
open Cert.ReferenceIdeal Cert.ReferenceIdeal.Hand

/-- The reference's arguments end as launched: its run ends with every buffer at the last fold, which at an
    argument walks back to the launch memory. -/
theorem frame_ri : Cert.frame_ReferenceIdeal := fun m ρ _ =>
  (θ_run (Cert.ReferenceIdeal.defs (F := Ideal)) _ _).mono (fun _ h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩)
    (run_all (F := Ideal) m ρ)

end Reference

theorem preserves : Cert.preserves_Kernel_KernelIdeal := trivial

/-- From memories agreeing on the arguments the kernel ends at the kernel form of the specification (its run) and
    the reference at the reference form (its run and value); on the precondition's domain the two forms are equal. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.HandValue.run m ρ, ?_⟩
  refine (θ_run (Cert.ReferenceIdeal.defs (F := Ideal)) _ _).mono (fun _ h c => ⟨?_,
      (h c _ (Cert.ReferenceIdeal.Hand.mem_uc Cert.ReferenceIdeal.main_arg0 (by decide))).trans (Cert.ReferenceIdeal.Hand.W5_main_arg0 m' ρ' c),
      (h c _ (Cert.ReferenceIdeal.Hand.mem_uc Cert.ReferenceIdeal.main_arg1 (by decide))).trans (Cert.ReferenceIdeal.Hand.W5_main_arg1 m' ρ' c),
      (h c _ (Cert.ReferenceIdeal.Hand.mem_uc Cert.ReferenceIdeal.main_arg2 (by decide))).trans (Cert.ReferenceIdeal.Hand.W5_main_arg2 m' ρ' c),
      (h c _ (Cert.ReferenceIdeal.Hand.mem_uc Cert.ReferenceIdeal.main_arg3 (by decide))).trans (Cert.ReferenceIdeal.Hand.W5_main_arg3 m' ρ' c),
      (h c _ (Cert.ReferenceIdeal.Hand.mem_uc Cert.ReferenceIdeal.main_arg4 (by decide))).trans (Cert.ReferenceIdeal.Hand.W5_main_arg4 m' ρ' c),
      (h c _ (Cert.ReferenceIdeal.Hand.mem_uc Cert.ReferenceIdeal.main_arg5 (by decide))).trans (Cert.ReferenceIdeal.Hand.W5_main_arg5 m' ρ' c)⟩)
    (Cert.ReferenceIdeal.Hand.run_all (F := Ideal) m' ρ')
  refine ((h c _ (Cert.ReferenceIdeal.Hand.mem_uc Cert.ReferenceIdeal.main_v17 (by decide))).trans
    (Cert.ReferenceIdeal.Hand.W5_main_v17 m' ρ' c)).trans ?_
  obtain ⟨e0, e1, e2, e3, e4, e5⟩ := hagree c
  rw [show m' ((c : Thread Cert.ReferenceIdeal.nD Cert.ReferenceIdeal.τ).loc Cert.ReferenceIdeal.main_arg0) = _ from e0,
    show m' ((c : Thread Cert.ReferenceIdeal.nD Cert.ReferenceIdeal.τ).loc Cert.ReferenceIdeal.main_arg1) = _ from e1,
    show m' ((c : Thread Cert.ReferenceIdeal.nD Cert.ReferenceIdeal.τ).loc Cert.ReferenceIdeal.main_arg2) = _ from e2,
    show m' ((c : Thread Cert.ReferenceIdeal.nD Cert.ReferenceIdeal.τ).loc Cert.ReferenceIdeal.main_arg3) = _ from e3,
    show m' ((c : Thread Cert.ReferenceIdeal.nD Cert.ReferenceIdeal.τ).loc Cert.ReferenceIdeal.main_arg4) = _ from e4,
    show m' ((c : Thread Cert.ReferenceIdeal.nD Cert.ReferenceIdeal.τ).loc Cert.ReferenceIdeal.main_arg5) = _ from e5]
  obtain ⟨h0, h1, h2, h3, h4, h5, hv0⟩ := Cert.PreFacts.of_fn _ _ _ _ _ _ (hpre c)
  exact (Cert.Spec.outK_eq_outR _ _ _ _ _ _ h0 h1 h2 h3 h4 h5 hv0).symm

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
